-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S2x256x128 : Shape := ⟨3, ![2, 256, 128]⟩
abbrev S2x128 : Shape := ⟨2, ![2, 128]⟩
abbrev S2x256x1 : Shape := ⟨3, ![2, 256, 1]⟩
abbrev S2x1 : Shape := ⟨2, ![2, 1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S2x1600000 : S_.BroadcastsInDim S2x1600000 (![] : Fin 0 → Fin S2x1600000.rank)
  reducesTo_S2x1600000_S_d0_1 : S2x1600000.ReducesTo [0, 1] S_
  bcast_S_S2x256x128 : S_.BroadcastsInDim S2x256x128 (![] : Fin 0 → Fin S2x256x128.rank)
  reducesTo_S2x256x128_S_d0_1_2 : S2x256x128.ReducesTo [0, 1, 2] S_
  bcast_S_S2x128 : S_.BroadcastsInDim S2x128 (![] : Fin 0 → Fin S2x128.rank)
  reducesTo_S2x128_S_d0_1 : S2x128.ReducesTo [0, 1] S_
  bcast_S_S2x256x1 : S_.BroadcastsInDim S2x256x1 (![] : Fin 0 → Fin S2x256x1.rank)
  reducesTo_S2x256x1_S_d0_1_2 : S2x256x1.ReducesTo [0, 1, 2] S_
  bcast_S_S2x1 : S_.BroadcastsInDim S2x1 (![] : Fin 0 → Fin S2x1.rank)
  reducesTo_S2x1_S_d0_1 : S2x1.ReducesTo [0, 1] S_

variable [Facts]

def fn_part1 {F : FTy → Type} [FloatOps F] (main_arg4 : FVec F S2x256x1 .f32) (main_arg5 : FVec F S2x1 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x256x1 .f32 := Host.absf main_arg4
  let main_cst_6 : FVec F S_ .f32 := constant S_ .f32 0x7F800000#32
  let main_v20 : FVec F S2x256x1 .f32 := broadcastInDim S2x256x1 ![] bcast_S_S2x256x1 main_cst_6
  let main_v21 : IVec S2x256x1 1 := cmpf .olt main_v19 main_v20
  let main_c_7 : IVec S_ 1 := constantI S_ 1 1#1
  let main_v22 : IVec S_ 1 := (fun x v => Host.reduce IntOp.andi x v reducesTo_S2x256x1_S_d0_1_2 h_S_) main_v21 main_c_7
  let main_v23 : IVec S_ 1 := andi main_v18 main_v22
  let main_v24 : FVec F S2x1 .f32 := Host.absf main_arg5
  let main_cst_8 : FVec F S_ .f32 := constant S_ .f32 0x7F800000#32
  let main_v25 : FVec F S2x1 .f32 := broadcastInDim S2x1 ![] bcast_S_S2x1 main_cst_8
  let main_v26 : IVec S2x1 1 := cmpf .olt main_v24 main_v25
  let main_c_9 : IVec S_ 1 := constantI S_ 1 1#1
  let main_v27 : IVec S_ 1 := (fun x v => Host.reduce IntOp.andi x v reducesTo_S2x1_S_d0_1 h_S_) main_v26 main_c_9
  let main_v28 : IVec S_ 1 := andi main_v23 main_v27
  main_v28

def fn {F : FTy → Type} [FloatOps F] (main_arg0 : FVec F S100000x256 .f32) (main_arg1 : FVec F S2x1600000 .f32) (main_arg2 : FVec F S2x256x128 .f32) (main_arg3 : FVec F S2x128 .f32) (main_arg4 : FVec F S2x256x1 .f32) (main_arg5 : FVec F S2x1 .f32) (main_arg6 : IVec S2x1600000 32) (main_arg7 : IVec S2x1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S2x1600000 .f32 := Host.absf main_arg1
  let main_cst_0 : FVec F S_ .f32 := constant S_ .f32 0x7F800000#32
  let main_v5 : FVec F S2x1600000 .f32 := broadcastInDim S2x1600000 ![] bcast_S_S2x1600000 main_cst_0
  let main_v6 : IVec S2x1600000 1 := cmpf .olt main_v4 main_v5
  let main_c_1 : IVec S_ 1 := constantI S_ 1 1#1
  let main_v7 : IVec S_ 1 := (fun x v => Host.reduce IntOp.andi x v reducesTo_S2x1600000_S_d0_1 h_S_) main_v6 main_c_1
  let main_v8 : IVec S_ 1 := andi main_v3 main_v7
  let main_v9 : FVec F S2x256x128 .f32 := Host.absf main_arg2
  let main_cst_2 : FVec F S_ .f32 := constant S_ .f32 0x7F800000#32
  let main_v10 : FVec F S2x256x128 .f32 := broadcastInDim S2x256x128 ![] bcast_S_S2x256x128 main_cst_2
  let main_v11 : IVec S2x256x128 1 := cmpf .olt main_v9 main_v10
  let main_c_3 : IVec S_ 1 := constantI S_ 1 1#1
  let main_v12 : IVec S_ 1 := (fun x v => Host.reduce IntOp.andi x v reducesTo_S2x256x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_v13 main_v16
-- ==== Kernel.lean ====
abbrev S100000x256 : Shape := ⟨2, ![100000, 256]⟩
abbrev S2x1600000 : Shape := ⟨2, ![2, 1600000]⟩
abbrev S2x256x128 : Shape := ⟨3, ![2, 256, 128]⟩
abbrev S2x128 : Shape := ⟨2, ![2, 128]⟩
abbrev S2x256x1 : Shape := ⟨3, ![2, 256, 1]⟩
abbrev S2x1 : Shape := ⟨2, ![2, 1]⟩
abbrev S2x100000x128 : Shape := ⟨3, ![2, 100000, 128]⟩
abbrev S5000x256 : Shape := ⟨2, ![5000, 256]⟩
abbrev S2x5000x128 : Shape := ⟨3, ![2, 5000, 128]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x256x1 : Shape := ⟨3, ![1, 256, 1]⟩
abbrev S256x1 : Shape := ⟨2, ![256, 1]⟩
abbrev S1x1 : Shape := ⟨2, ![1, 1]⟩
abbrev S1 : Shape := ⟨1, ![1]⟩
abbrev S5000x128 : Shape := ⟨2, ![5000, 128]⟩
abbrev S5000x1 : Shape := ⟨2, ![5000, 1]⟩
abbrev S1x5000x128 : Shape := ⟨3, ![1, 5000, 128]⟩
abbrev S1x1600000 : Shape := ⟨2, ![1, 1600000]⟩
abbrev S1600000 : Shape := ⟨1, ![1600000]⟩
abbrev S1x100000x128 : Shape := ⟨3, ![1, 100000, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S10000x128 : Shape := ⟨2, ![10000, 128]⟩

abbrev nBuf : Space → Nat
  | .hbm => 60
  | .vmem => 14
  | .smem => 0
  | _ => 0

abbrev bufTy : (tb : Table) → Fin (tcTables nBuf tb) → BufTy
  | .hbm, ⟨0, _⟩ => ⟨S100000x256, .f32⟩
  | .hbm, ⟨1, _⟩ => ⟨S2x1600000, .f32⟩
  | .hbm, ⟨2, _⟩ => ⟨S2x256x128, .f32⟩
  | .hbm, ⟨3, _⟩ => ⟨S2x128, .f32⟩
  | .hbm, ⟨4, _⟩ => ⟨S2x256x1, .f32⟩
  | .hbm, ⟨5, _⟩ => ⟨S2x1, .f32⟩
  | .hbm, ⟨6, _⟩ => ⟨S2x1600000, .i32⟩
  | .hbm, ⟨7, _⟩ => ⟨S2x1600000, .i32⟩
  | .hbm, ⟨8, _⟩ => ⟨S2x100000x128, .bf16⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1x1600000, .f32⟩
  | .hbm, ⟨14, _⟩ => ⟨S1600000, .f32⟩
  | .hbm, ⟨15, _⟩ => ⟨S1x100000x128, .bf16⟩
  | .hbm, ⟨16, _⟩ => ⟨S100000x128, .bf16⟩
  | .hbm, ⟨17, _⟩ => ⟨S1600000x1, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .bf16⟩
  | .hbm, ⟨27, _⟩ => ⟨S1600000x128, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S1x1600000, .i32⟩
  | .hbm, ⟨35, _⟩ => ⟨S1600000, .i32⟩
  | .hbm, ⟨36, _⟩ => ⟨S1x1600000, .i32⟩
  | .hbm, ⟨37, _⟩ => ⟨S1600000, .i32⟩
  | .hbm, ⟨38, _⟩ => ⟨S1x1600000, .f32⟩
  | .hbm, ⟨39, _⟩ => ⟨S1600000, .f32⟩
  | .hbm, ⟨40, _⟩ => ⟨S1x100000x128, .bf16⟩
  | .hbm, ⟨41, _⟩ => ⟨S100000x128, .bf16⟩
  | .hbm, ⟨42, _⟩ => ⟨S1600000x1, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .bf16⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S2x256x128, .f32⟩
  | .local _ .vmem, ⟨3, _⟩ => ⟨S2x128, .f32⟩
  | .local _ .vmem, ⟨4, _⟩ => ⟨S2x256x1, .f32⟩
  | .local _ .vmem, ⟨5, _⟩ => ⟨S2x1, .f32⟩
  | .local _ .vmem, ⟨6, _⟩ => ⟨S2x5000x128, .bf16⟩
  | .local _ .vmem, ⟨7, _⟩ => ⟨S2x5000x128, .bf16⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_1 : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_3 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S2x256x128_S1x256x128_0_0_0 : ∀ a, (![0, 0, 0] : Fin 3 → Nat) a + S1x256x128.size a ≤ S2x256x128.size a
  h_S1x256x128 : 0 < S1x256x128.numel
  shapeCasts_S1x256x128_S256x128 : S1x256x128.ShapeCasts S256x128
  inb_S2x128_S1x128_0_0 : ∀ a, (![0, 0] : Fin 2 → Nat) a + S1x128.size a ≤ S2x128.size a
  h_S1x128 : 0 < S1x128.numel
  shapeCasts_S1x128_S128 : S1x128.ShapeCasts S128
  inb_S2x256x1_S1x256x1_0_0_0 : ∀ a, (![0, 0, 0] : Fin 3 → Nat) a + S1x256x1.size a ≤ S2x256x1.size a
  h_S1x256x1 : 0 < S1x256x1.numel
  shapeCasts_S1x256x1_S256x1 : S1x256x1.ShapeCasts S256x1
  inb_S2x1_S1x1_0_0 : ∀ a, (![0, 0] : Fin 2 → Nat) a + S1x1.size a ≤ S2x1.size a
  h_S1x1 : 0 < S1x1.numel
  shapeCasts_S1x1_S1 : S1x1.ShapeCasts S1
  shapeCasts_S128_S1x128 : S128.ShapeCasts S1x128
  broadcasts_S1x128_S5000x128 : S1x128.Broadcasts S5000x128
  shapeCasts_S1_S1x1 : S1.ShapeCasts S1x1
  broadcasts_S1x1_S5000x1 : S1x1.Broadcasts S5000x1
  broadcasts_S5000x1_S5000x128 : S5000x1.Broadcasts S5000x128
  inb_S2x5000x128_S1x5000x128_0_0_0 : ∀ a, (![0, 0, 0] : Fin 3 → Nat) a + S1x5000x128.size a ≤ S2x5000x128.size a
  h_S1x5000x128 : 0 < S1x5000x128.numel
  shapeCasts_S1x5000x128_S5000x128 : S1x5000x128.ShapeCasts S5000x128
  shapeCasts_S5000x128_S1x5000x128 : S5000x128.ShapeCasts S1x5000x128
  packedbf16_S2x5000x128_S1x5000x128_0_0_0 : (Rect.unit (s := S2x5000x128) ![0, 0, 0] S1x5000x128.size inb_S2x5000x128_S1x5000x128_0_0_0).PackedRows (EltTy.packing .bf16)
  inb_S2x256x128_S1x256x128_1_0_0 : ∀ a, (![1, 0, 0] : Fin 3 → Nat) a + S1x256x128.size a ≤ S2x256x128.size a
  inb_S2x128_S1x128_1_0 : ∀ a, (![1, 0] : Fin 2 → Nat) a + S1x128.size a ≤ S2x128.size a
  inb_S2x256x1_S1x256x1_1_0_0 : ∀ a, (![1, 0, 0] : Fin 3 → Nat) a + S1x256x1.size a ≤ S2x256x1.size a
  inb_S2x1_S1x1_1_0 : ∀ a, (![1, 0] : Fin 2 → Nat) a + S1x1.size a ≤ S2x1.size a
  inb_S2x5000x128_S1x5000x128_1_0_0 : ∀ a, (![1, 0, 0] : Fin 3 → Nat) a + S1x5000x128.size a ≤ S2x5000x128.size a
  packedbf16_S2x5000x128_S1x5000x128_1_0_0 : (Rect.unit (s := S2x5000x128) ![1, 0, 0] S1x5000x128.size inb_S2x5000x128_S1x5000x128_1_0_0).PackedRows (EltTy.packing .bf16)
  slices_S2x1600000_S1x1600000_0_0 : S2x1600000.Slices ![0, 0] S1x1600000
  shapeCasts_S1x1600000_S1600000 : S1x1600000.ShapeCasts S1600000
  slices_S2x100000x128_S1x100000x128_0_0_0 : S2x100000x128.Slices ![0, 0, 0] S1x100000x128
  shapeCasts_S1x100000x128_S100000x128 : S1x100000x128.ShapeCasts S100000x128
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S2x1600000_S1x1600000_1_0 : S2x1600000.Slices ![1, 0] S1x1600000
  slices_S2x100000x128_S1x100000x128_1_0_0 : S2x100000x128.Slices ![1, 0, 0] S1x100000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  dot_S5000x256_S256x128_S5000x128_1_0_0_1_n_n_wf : DotDims.WF S5000x256 S256x128 S5000x128 [1] [0] [0] [1] [] []
  dot_S5000x256_S256x1_S5000x1_1_0_0_1_n_n_wf : DotDims.WF S5000x256 S256x1 S5000x1 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x256x128.size a ≤ S2x256x128.size a
  hwx0_1 : ∀ i : grid0.Coords, EltTy.bits .f32 = 32 ∨ (Rect.block (s := S2x256x128) S2x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x256x1.size a ≤ S2x256x1.size a
  hwx0_3 : ∀ i : grid0.Coords, EltTy.bits .f32 = 32 ∨ (Rect.block (s := S2x256x1) S2x256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x1.size a ≤ S2x1.size a
  hwx0_4 : ∀ i : grid0.Coords, EltTy.bits .f32 = 32 ∨ (Rect.block (s := S2x1) S2x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x5000x128.size a ≤ S2x100000x128.size a
  hwx0_5 : ∀ i : grid0.Coords, EltTy.bits .bf16 = 32 ∨ (Rect.block (s := S2x100000x128) S2x5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S2x256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S2x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2x5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v22) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S2x256x128 : Shape := ⟨3, ![2, 256, 128]⟩
abbrev S2x128 : Shape := ⟨2, ![2, 128]⟩
abbrev S2x256x1 : Shape := ⟨3, ![2, 256, 1]⟩
abbrev S2x1 : Shape := ⟨2, ![2, 1]⟩
abbrev S_ : Shape := ⟨0, ![]⟩
abbrev S100000x128 : Shape := ⟨2, ![100000, 128]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S1x256x1 : Shape := ⟨3, ![1, 256, 1]⟩
abbrev S256x1 : Shape := ⟨2, ![256, 1]⟩
abbrev S100000x1 : Shape := ⟨2, ![100000, 1]⟩
abbrev S1x1 : Shape := ⟨2, ![1, 1]⟩
abbrev S1 : Shape := ⟨1, ![1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩

abbrev nBuf : Space → Nat
  | .hbm => 111
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .f32⟩
  | .hbm, ⟨2, _⟩ => ⟨S2x256x128, .f32⟩
  | .hbm, ⟨3, _⟩ => ⟨S2x128, .f32⟩
  | .hbm, ⟨4, _⟩ => ⟨S2x256x1, .f32⟩
  | .hbm, ⟨5, _⟩ => ⟨S2x1, .f32⟩
  | .hbm, ⟨6, _⟩ => ⟨S2x1600000, .i32⟩
  | .hbm, ⟨7, _⟩ => ⟨S2x1600000, .i32⟩
  | .hbm, ⟨8, _⟩ => ⟨S_, .f32⟩
  | .hbm, ⟨9, _⟩ => ⟨S100000x128, .f32⟩
  | .hbm, ⟨10, _⟩ => ⟨S1x256x128, .f32⟩
  | .hbm, ⟨11, _⟩ => ⟨S256x128, .f32⟩
  | .hbm, ⟨12, _⟩ => ⟨S100000x128, .f32⟩
  | .hbm, ⟨13, _⟩ => ⟨S1x128, .f32⟩
  | .hbm, ⟨14, _⟩ => ⟨S128, .f32⟩
  | .hbm, ⟨15, _⟩ => ⟨S1x128, .f32⟩
  | .hbm, ⟨16, _⟩ => ⟨S100000x128, .f32⟩
  | .hbm, ⟨17, _⟩ => ⟨S100000x128, .f32⟩
  | .hbm, ⟨18, _⟩ => ⟨S1x256x1, .f32⟩
  | .hbm, ⟨19, _⟩ => ⟨S256x1, .f32⟩
  | .hbm, ⟨20, _⟩ => ⟨S100000x1, .f32⟩
  | .hbm, ⟨21, _⟩ => ⟨S1x1, .f32⟩
  | .hbm, ⟨22, _⟩ => ⟨S1, .f32⟩
  | .hbm, ⟨23, _⟩ => ⟨S1x1, .f32⟩
  | .hbm, ⟨24, _⟩ => ⟨S100000x1, .f32⟩
  | .hbm, ⟨25, _⟩ => ⟨S100000x1, .f32⟩
  | .hbm, ⟨26, _⟩ => ⟨S100000x1, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S1x1600000, .i32⟩
  | .hbm, ⟨35, _⟩ => ⟨S1600000, .i32⟩
  | .hbm, ⟨36, _⟩ => ⟨S1x1600000, .i32⟩
  | .hbm, ⟨37, _⟩ => ⟨S1600000, .i32⟩
  | .hbm, ⟨38, _⟩ => ⟨S1x1600000, .f32⟩
  | .hbm, ⟨39, _⟩ => ⟨S1600000, .f32⟩
  | .hbm, ⟨40, _⟩ => ⟨S100000x128, .f32⟩
  | .hbm, ⟨41, _⟩ => ⟨S100000x128, .f32⟩
  | .hbm, ⟨42, _⟩ => ⟨S1600000x1, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S1x256x128, .f32⟩
  | .hbm, ⟨60, _⟩ => ⟨S256x128, .f32⟩
  | .hbm, ⟨61, _⟩ => ⟨S100000x128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S1x256x1, .f32⟩
  | .hbm, ⟨68, _⟩ => ⟨S256x1, .f32⟩
  | .hbm, ⟨69, _⟩ => ⟨S100000x1, .f32⟩
  | .hbm, ⟨70, _⟩ => ⟨S1x1, .f32⟩
  | .hbm, ⟨71, _⟩ => ⟨S1, .f32⟩
  | .hbm, ⟨72, _⟩ => ⟨S1x1, .f32⟩
  | .hbm, ⟨73, _⟩ => ⟨S100000x1, .f32⟩
  | .hbm, ⟨74, _⟩ => ⟨S100000x1, .f32⟩
  | .hbm, ⟨75, _⟩ => ⟨S100000x1, .f32⟩
  | .hbm, ⟨76, _⟩ => ⟨S100000x1, .f32⟩
  | .hbm, ⟨77, _⟩ => ⟨S_, .f32⟩
  | .hbm, ⟨78, _⟩ => ⟨S100000x1, .f32⟩
  | .hbm, ⟨79, _⟩ => ⟨S100000x1, .f32⟩
  | .hbm, ⟨80, _⟩ => ⟨S_, .f32⟩
  | .hbm, ⟨81, _⟩ => ⟨S100000x1, .f32⟩
  | .hbm, ⟨82, _⟩ => ⟨S100000x1, .f32⟩
  | .hbm, ⟨83, _⟩ => ⟨S1x1600000, .i32⟩
  | .hbm, ⟨84, _⟩ => ⟨S1600000, .i32⟩
  | .hbm, ⟨85, _⟩ => ⟨S1x1600000, .i32⟩
  | .hbm, ⟨86, _⟩ => ⟨S1600000, .i32⟩
  | .hbm, ⟨87, _⟩ => ⟨S1x1600000, .f32⟩
  | .hbm, ⟨88, _⟩ => ⟨S1600000, .f32⟩
  | .hbm, ⟨89, _⟩ => ⟨S100000x128, .f32⟩
  | .hbm, ⟨90, _⟩ => ⟨S100000x128, .f32⟩
  | .hbm, ⟨91, _⟩ => ⟨S1600000x1, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S1600000x128, .f32⟩
  | .hbm, ⟨102, _⟩ => ⟨S1600000x128, .f32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_v33 : Ref sig .tc := ⟨.hbm, 45, rfl⟩
abbrev main_c_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_3 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_4 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_c_6 : Ref sig .tc := ⟨.hbm, 92, rfl⟩
abbrev main_v76 : Ref sig .tc := ⟨.hbm, 93, rfl⟩
abbrev main_v77 : Ref sig .tc := ⟨.hbm, 94, rfl⟩
abbrev main_c_7 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_8 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_call0_cst : Ref sig .tc := ⟨.hbm, 108, rfl⟩
abbrev main_call0_v0 : Ref sig .tc := ⟨.hbm, 109, rfl⟩
abbrev main_v89 : Ref sig .tc := ⟨.hbm, 110, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S2x256x128_S1x256x128_0_0_0 : S2x256x128.Slices ![0, 0, 0] S1x256x128
  shapeCasts_S1x256x128_S256x128 : S1x256x128.ShapeCasts S256x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x256x1_S1x256x1_0_0_0 : S2x256x1.Slices ![0, 0, 0] S1x256x1
  shapeCasts_S1x256x1_S256x1 : S1x256x1.ShapeCasts S256x1
  slices_S2x1_S1x1_0_0 : S2x1.Slices ![0, 0] S1x1
  shapeCasts_S1x1_S1 : S1x1.ShapeCasts S1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  slices_S2x1600000_S1x1600000_0_0 : S2x1600000.Slices ![0, 0] S1x1600000
  shapeCasts_S1x1600000_S1600000 : S1x1600000.ShapeCasts S1600000
  bcast_S100000x1_S100000x128_0_1 : S100000x1.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  slices_S2x256x128_S1x256x128_1_0_0 : S2x256x128.Slices ![1, 0, 0] S1x256x128
  slices_S2x128_S1x128_1_0 : S2x128.Slices ![1, 0] S1x128
  slices_S2x256x1_S1x256x1_1_0_0 : S2x256x1.Slices ![1, 0, 0] S1x256x1
  slices_S2x1_S1x1_1_0 : S2x1.Slices ![1, 0] S1x1
  slices_S2x1600000_S1x1600000_1_0 : S2x1600000.Slices ![1, 0] S1x1600000
  dot_S100000x256_S256x128_S100000x128_1_0_0_1_n_n_wf : DotDims.WF S100000x256 S256x128 S100000x128 [1] [0] [0] [1] [] []
  dot_S100000x256_S256x1_S100000x1_1_0_0_1_n_n_wf : DotDims.WF S100000x256 S256x1 S100000x1 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x256_S256x1_S100000x1_1_0_0_1_n_n : DotDims S100000x256 S256x1 S100000x1 where
  lhsContracting := [1]
  rhsContracting := [0]
  lhsNonContracting := [0]
  rhsNonContracting := [1]
  lhsBatch := []
  rhsBatch := []
  wf := dot_S100000x256_S256x1_S100000x1_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run, with every buffer named at its end.

  @main is three segments: the dense-transform call, a stretch of host operations (the two sparse
  products), and the combine call. The contents of the TensorCore's buffers at the four segment boundaries are
  a fold from the launch memory: at a call's exit its arrays hold what its write-backs leave, every other buffer
  what it held at entry; after the host stretch every buffer holds what the operations' composition leaves. The
  theorem below states that every weakly fair execution terminates with EVERY buffer that outlives a call at the
  last boundary's contents — in particular the result array, which is the combine call's output array after its
  ten write-backs.
-/
import proofs.«105891_j51290499448997_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in its final state every buffer that is
    not scoped to a call holds the last boundary's contents `W3`. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h => h)

/-- The result array at the end of the run: the combine call's output array after its last write-back. -/
theorem result_eq (c : Dev nD) : W3 m ρ c (Proc.devRef .tc main_v45) = (dat1 (V2 m ρ) c).arrAt 2 cfg1.N :=
  W3_arr m ρ c 2

end Cert.KernelIdeal.Whole

end
-- ==== Proof.Spec.lean ====
/-
  The mathematics of the gated graph convolution, stated once over the extended reals.

  For a support `s`, a node `n` and an output unit `u` the GATED FEATURE is

      σ(Σ_k x[n,k]·Wg[s,k,0] + bg[s,0]) · (Σ_k x[n,k]·W[s,k,u] + b[s,u]),

  `σ` the logistic function. Both programs compute this table (one by row blocks on the matrix unit, one with whole
  matrix products) and then apply the same sparse product to it; the final array is the positive part of the sum
  over the two supports. Nothing here needs a finite input: sums and products are taken in the extended reals as
  they stand, and no term is moved across a sum.
-/
import Idealize.ShloMosaic.PureOps.Ideal.Laws
import Idealize.ShloMosaic.Lib.ValueIdx

noncomputable section

namespace Cert.GraphConv

open Idealize.ShloMosaic Idealize.ShloMosaic.ValueIdx

/-- The gated feature of one node, from the node's feature row `xrow`, the support's gate column `wg` and weight
    column `w` (both functions of the contracted coordinate) and the two biases. -/
def gatedOf (xrow : Fin 256 → EReal) (wg w : Fin 256 → EReal) (bgv bv : EReal) : EReal :=
  Ideal.logistic ((∑ k : Fin 256, xrow k * wg k) + bgv) * ((∑ k : Fin 256, xrow k * w k) + bv)

/-- The gated feature table `[2, 100000, 128]` of the five dense arguments. -/
def gated (x : (⟨2, ![100000, 256]⟩ : Shape).Idx → EReal) (W : (⟨3, ![2, 256, 128]⟩ : Shape).Idx → EReal)
    (b : (⟨2, ![2, 128]⟩ : Shape).Idx → EReal) (Wg : (⟨3, ![2, 256, 1]⟩ : Shape).Idx → EReal)
    (bg : (⟨2, ![2, 1]⟩ : Shape).Idx → EReal) (s : Fin 2) (n : Fin 100000) (u : Fin 128) : EReal :=
  gatedOf (fun k => x (ix2 n k)) (fun k => Wg (ix3 s k (0 : Fin 1))) (fun k => W (ix3 s k u))
    (bg (ix2 s (0 : Fin 1))) (b (ix2 s u))

/-- The positive part of a sum of two arrays, entry by entry: what the last stage leaves. -/
def combine (a b : (⟨2, ![100000, 128]⟩ : Shape).Idx → EReal) : (⟨2, ![100000, 128]⟩ : Shape).Idx → EReal :=
  fun i => max (a i + b i) 0

end Cert.GraphConv

end
-- ==== Proof.Combine.lean ====
/-
  The combine call, as one function of its two input arrays.

  Its grid has ten points; at point `t` each of the three windows stages rows `10000·t … 10000·t + 9999` of its
  array, and the body stores `max(a + b, 0)` of the two input blocks. The three windows move together, so what
  point `t` writes back is block `t` of the array `i ↦ max(a i + b i, 0)` of the whole inputs; the ten blocks tile
  the 100000 rows, so after the last write-back the output array IS that function.
-/
import proofs.«105891_j51290499448997_2_alg».proof.Proof.Gen.KernelIdeal.Frame
import proofs.«105891_j51290499448997_2_alg».proof.Proof.Spec
import Idealize.ShloMosaic.Lib.Pipeline.Value
import Idealize.ShloMosaic.Lib.ValueIdx

set_option maxRecDepth 16384

noncomputable section

namespace Cert.KernelIdeal.Combine

open Cert.KernelIdeal Cert.KernelIdeal.Gen Cert.GraphConv
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's one store: the positive part of the sum of its two loads, entry by entry. -/
theorem store_eq (x0 x1 : Vec Ideal S10000x128 .f32) :
    k1_pay1 (F := Ideal) x0 x1 = fun j => max (x0 j + x1 j) 0 := by
  unfold k1_pay1
  funext j
  show max (shapeCast S10000x128 x0 shapeCasts_S10000x128_S10000x128 j + shapeCast S10000x128 x1 shapeCasts_S10000x128_S10000x128 j)
      (Ideal.ofBits .f32 0x00000000#32) = _
  rw [shapeCast_self, shapeCast_self, Ideal.ofBits_zero_f32]

/-- The three index maps over the ten points: the same row block, column block 0. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2)
    ∧ win1_2.index t (0 : Fin 2) ≤ 9 ∧ win1_2.index t (1 : Fin 2) = 0 :=
  (by decide +kernel : ∀ t : Fin grid1.N, _)

/-- Every row block is some point's. -/
theorem index_onto : ∀ q0 : Fin 10, ∃ t : Fin cfg1.N, win1_2.index t = ![q0.val, 0] :=
  (by decide +kernel : ∀ q0 : Fin 10, ∃ t : Fin grid1.N, win1_2.index t = ![q0.val, 0])

/-- What point `t` writes back is block `t` of the combined array of the two whole inputs. -/
theorem flushed_eq (c : Dev nD) (t : Fin cfg1.N) :
    (dat1 V c).flushed 2 t
      = ((cfg1.win 2).blk t).view.read (Elt Ideal) (combine (V c main_v22) (V c main_v44)) := by
  show (cfg1.win 2).cut (grid1.coords t) ((dat1 V c).after 2 t) = _
  rw [after1_2]
  unfold out1_2
  rw [View.canon_unit_zero offsets_zero]
  simp only [View.ld_unit_zero (S := S10000x128) offsets_zero]
  rw [store_eq]
  obtain ⟨e0, e1, e2, e3, e4, e5⟩ := index_facts t
  funext j
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 128 + 1 * (j 1).val = win1_2.index t (1 : Fin 2) * 128 + 1 * (j 1).val; omega
  have key : ∀ A B : S100000x128.Idx → EReal,
      max (A (((cfg1.win 0).blk t).view.emb j) + B (((cfg1.win 1).blk t).view.emb j)) 0
        = max (A (((cfg1.win 2).blk t).view.emb j) + B (((cfg1.win 2).blk t).view.emb j)) 0 := by
    intro A B; rw [h0, h1]
  exact key (V c main_v22) (V c main_v44)

/-- An index of the output array is in point `t`'s block iff each coordinate is in the block's range. -/
theorem mem_block (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v45).slice (win1_2.rect t)).set ↔ _
  rw [View.set_slice_whole, Rect.mem_set_unit]
  exact Iff.rfl

/-- The ten blocks cover the array: row `r` is in block `r / 10000`. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := index_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The output array after the ten write-backs: the positive part of the sum of the two input arrays as the call
    found them. -/
theorem final (c : Dev nD) :
    (dat1 V c).arrAt 2 cfg1.N = combine (V c main_v22) (V c main_v44) :=
  (dat1 V c).arrAt_eq_of_cover 2 (combine (V c main_v22) (V c main_v44)) (fun t _ => flushed_eq V c t) cover

end Cert.KernelIdeal.Combine

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibColumn.lean ====
/-
  One column broadcast over many. A `[a, 1]` array broadcast to `[a, b]` holds, at `(p, c)`, the operand's
  entry `(p, 0)`: every column of the result is the operand's one column. (The row form, `[1, b]` to `[a, b]`,
  is the library's `broadcastTo_1b_ab_apply`.) Also the host's `broadcast_in_dim` of a vector `[a]` to the column
  `[a, 1]` along axis 0, read at `(p, u)`: the vector's entry `p`.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` placed by `broadcast_in_dim` along axis 0 of the column shape `[a, 1]` reads, at `(p, u)`,
    the vector's entry `p`. -/
theorem broadcastInDim_a_a1_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

end Cert.LibColumn
-- ==== Proof.DensePayload.lean ====
/-
  One row block of the dense transform, entry by entry.

  For a block of 5000 node rows the body computes, per support, the gate logit (the block times the support's
  gate column, plus the gate bias), its logistic, the weighted sum (the block times the support's weight
  matrix, plus the bias row), and stores their product. Read at row `p` and unit `q` of the stored `[1, 5000, 128]`
  piece, that is the gated feature of the block's row `p`: the two matrix products are sums over the 256
  contracted coordinates, the changes of float format are the identity on the extended reals, and the layout
  steps (a leading unit axis dropped or added, a row or a column broadcast) only re-index.
-/
import proofs.«105891_j51290499448997_2_alg».proof.Proof.Gen.KernelIdeal.Skeleton
import proofs.«105891_j51290499448997_2_alg».proof.Proof.Spec
import proofs.«105891_j51290499448997_2_alg».proof.Proof.LibMatmul
import proofs.«105891_j51290499448997_2_alg».proof.Proof.LibColumn
import Idealize.ShloMosaic.Lib.ValueLayout
import Idealize.ShloMosaic.Lib.Pipeline.Value

noncomputable section

namespace Cert.KernelIdeal.Dense

open Cert.KernelIdeal Cert.KernelIdeal.Gen Cert.GraphConv
open Idealize.ShloMosaic Idealize.ShloMosaic.ValueIdx

/-! ## Which operand entries the two products pair -/

abbrev dotW : DotDims S5000x256 S256x128 S5000x128 := dot_S5000x256_S256x128_S5000x128_1_0_0_1_n_n
abbrev dotG : DotDims S5000x256 S256x1 S5000x1 := dot_S5000x256_S256x1_S5000x1_1_0_0_1_n_n

theorem dotW_l0 (j : S5000x128.Idx) (q : dotW.contr.Idx) : (dotW.lhsIdx j q 0).val = (j 0).val := by
  unfold DotDims.lhsIdx
  rw [dif_neg (show ¬(0 : Fin S5000x256.rank) ∈ dotW.lhsBatch by decide),
    dif_pos (show (0 : Fin S5000x256.rank) ∈ dotW.lhsNonContracting by decide)]
  rfl
theorem dotW_l1 (j : S5000x128.Idx) (q : dotW.contr.Idx) : (dotW.lhsIdx j q 1).val = (q ⟨0, by decide⟩).val :=
  dotW.lhsIdx_val_of_single rfl j q
theorem dotW_r0 (j : S5000x128.Idx) (q : dotW.contr.Idx) : (dotW.rhsIdx j q 0).val = (q ⟨0, by decide⟩).val :=
  dotW.rhsIdx_val_of_single rfl j q
theorem dotW_r1 (j : S5000x128.Idx) (q : dotW.contr.Idx) : (dotW.rhsIdx j q 1).val = (j 1).val := by
  unfold DotDims.rhsIdx
  rw [dif_neg (show ¬(1 : Fin S256x128.rank) ∈ dotW.rhsBatch by decide),
    dif_pos (show (1 : Fin S256x128.rank) ∈ dotW.rhsNonContracting by decide)]
  rfl

theorem dotG_l0 (j : S5000x1.Idx) (q : dotG.contr.Idx) : (dotG.lhsIdx j q 0).val = (j 0).val := by
  unfold DotDims.lhsIdx
  rw [dif_neg (show ¬(0 : Fin S5000x256.rank) ∈ dotG.lhsBatch by decide),
    dif_pos (show (0 : Fin S5000x256.rank) ∈ dotG.lhsNonContracting by decide)]
  rfl
theorem dotG_l1 (j : S5000x1.Idx) (q : dotG.contr.Idx) : (dotG.lhsIdx j q 1).val = (q ⟨0, by decide⟩).val :=
  dotG.lhsIdx_val_of_single rfl j q
theorem dotG_r0 (j : S5000x1.Idx) (q : dotG.contr.Idx) : (dotG.rhsIdx j q 0).val = (q ⟨0, by decide⟩).val :=
  dotG.rhsIdx_val_of_single rfl j q
theorem dotG_r1 (j : S5000x1.Idx) (q : dotG.contr.Idx) : (dotG.rhsIdx j q 1).val = (j 1).val := by
  unfold DotDims.rhsIdx
  rw [dif_neg (show ¬(1 : Fin S256x1.rank) ∈ dotG.rhsBatch by decide),
    dif_pos (show (1 : Fin S256x1.rank) ∈ dotG.rhsNonContracting by decide)]
  rfl

/-! ## The two affine maps of a block, at a row -/

/-- The weighted sum plus bias at row `p`, unit `q`: `Σ_k block[p,k] · w[0,k,q] + bias[0,q]`. -/
theorem pre_apply (lhs : FVec Ideal S5000x256 .bf16) (v2 : FVec Ideal S1x256x128 .f32) (v5 : FVec Ideal S1x128 .f32)
    (h1 : S1x256x128.ShapeCasts S256x128) (h2 : FTy.bits .bf16 < FTy.bits .f32) (h3 : S1x128.ShapeCasts S128)
    (h4 : S128.ShapeCasts S1x128) (h5 : S1x128.Broadcasts S5000x128) (p : Fin 5000) (q : Fin 128) :
    addf (matmul dotW none lhs (truncf .bf16 (shapeCast S256x128 v2 h1) h2) (constant S5000x128 .f32 0x00000000#32))
        (broadcastTo S5000x128 (shapeCast S1x128 (shapeCast S128 v5 h3) h4) h5) (ix2 p q)
      = (∑ k : Fin 256, lhs (ix2 p k) * v2 (ix3 (0 : Fin 1) k q)) + v5 (ix2 (0 : Fin 1) q) := by
  have hA : matmul dotW none lhs (truncf .bf16 (shapeCast S256x128 v2 h1) h2) (constant S5000x128 .f32 0x00000000#32) (ix2 p q)
      = ∑ k : Fin 256, lhs (ix2 p k) * v2 (ix3 (0 : Fin 1) k q) :=
    (Cert.LibMatmul.matmul_zero_ix2 dotW none rfl rfl dotW_l0 dotW_l1 dotW_r0 dotW_r1 lhs
        (truncf .bf16 (shapeCast S256x128 v2 h1) h2) (ix2 p q)).trans
      (Finset.sum_congr rfl fun k _ => congrArg (lhs (ix2 p k) * ·) (shapeCast_1ab_ab_apply v2 h1 k q))
  have hB : broadcastTo S5000x128 (shapeCast S1x128 (shapeCast S128 v5 h3) h4) h5 (ix2 p q) = v5 (ix2 (0 : Fin 1) q) :=
    (broadcastTo_1b_ab_apply _ h5 p q).trans ((shapeCast_a_1a_apply _ h4 0 q).trans (shapeCast_1a_a_apply v5 h3 q))
  exact congrArg₂ (· + ·) hA hB

/-- The gate logit at row `p`: `Σ_k block[p,k] · wg[0,k,0] + bg[0,0]`. -/
theorem gate_apply (lhs : FVec Ideal S5000x256 .bf16) (v7 : FVec Ideal S1x256x1 .f32) (v10 : FVec Ideal S1x1 .f32)
    (h1 : S1x256x1.ShapeCasts S256x1) (h2 : FTy.bits .bf16 < FTy.bits .f32) (h3 : S1x1.ShapeCasts S1)
    (h4 : S1.ShapeCasts S1x1) (h5 : S1x1.Broadcasts S5000x1) (p : Fin 5000) :
    addf (matmul dotG none lhs (truncf .bf16 (shapeCast S256x1 v7 h1) h2) (constant S5000x1 .f32 0x00000000#32))
        (broadcastTo S5000x1 (shapeCast S1x1 (shapeCast S1 v10 h3) h4) h5) (ix2 p (0 : Fin 1))
      = (∑ k : Fin 256, lhs (ix2 p k) * v7 (ix3 (0 : Fin 1) k (0 : Fin 1))) + v10 (ix2 (0 : Fin 1) (0 : Fin 1)) := by
  have hA : matmul dotG none lhs (truncf .bf16 (shapeCast S256x1 v7 h1) h2) (constant S5000x1 .f32 0x00000000#32) (ix2 p (0 : Fin 1))
      = ∑ k : Fin 256, lhs (ix2 p k) * v7 (ix3 (0 : Fin 1) k (0 : Fin 1)) :=
    (Cert.LibMatmul.matmul_zero_ix2 dotG none rfl rfl dotG_l0 dotG_l1 dotG_r0 dotG_r1 lhs
        (truncf .bf16 (shapeCast S256x1 v7 h1) h2) (ix2 p (0 : Fin 1))).trans
      (Finset.sum_congr rfl fun k _ => congrArg (lhs (ix2 p k) * ·) (shapeCast_1ab_ab_apply v7 h1 k (0 : Fin 1)))
  have hB : broadcastTo S5000x1 (shapeCast S1x1 (shapeCast S1 v10 h3) h4) h5 (ix2 p (0 : Fin 1)) = v10 (ix2 (0 : Fin 1) (0 : Fin 1)) :=
    (broadcastTo_1b_ab_apply _ h5 p (0 : Fin 1)).trans
      ((shapeCast_a_1a_apply _ h4 0 (0 : Fin 1)).trans (shapeCast_1a_a_apply v10 h3 (0 : Fin 1)))
  exact congrArg₂ (· + ·) hA hB

/-! ## The stored piece -/

/-- The piece a support's store writes, at `(0, p, q)`: the gated feature of the block's row `p` at unit `q`. -/
theorem piece_apply (lhs : FVec Ideal S5000x256 .bf16) (v2 : FVec Ideal S1x256x128 .f32) (v5 : FVec Ideal S1x128 .f32)
    (v7 : FVec Ideal S1x256x1 .f32) (v10 : FVec Ideal S1x1 .f32)
    (a1 : S1x256x128.ShapeCasts S256x128) (a2 : FTy.bits .bf16 < FTy.bits .f32) (a3 : S1x128.ShapeCasts S128)
    (a4 : S128.ShapeCasts S1x128) (a5 : S1x128.Broadcasts S5000x128)
    (g1 : S1x256x1.ShapeCasts S256x1) (g2 : FTy.bits .bf16 < FTy.bits .f32) (g3 : S1x1.ShapeCasts S1)
    (g4 : S1.ShapeCasts S1x1) (g5 : S1x1.Broadcasts S5000x1)
    (hb : S5000x1.Broadcasts S5000x128) (ht : FTy.bits .bf16 < FTy.bits .f32) (hc : S5000x128.ShapeCasts S1x5000x128)
    (p : Fin 5000) (q : Fin 128) :
    shapeCast S1x5000x128
        (truncf .bf16
          (mulf
            (broadcastTo S5000x128
              (logistic (addf (matmul dotG none lhs (truncf .bf16 (shapeCast S256x1 v7 g1) g2) (constant S5000x1 .f32 0x00000000#32))
                (broadcastTo S5000x1 (shapeCast S1x1 (shapeCast S1 v10 g3) g4) g5))) hb)
            (addf (matmul dotW none lhs (truncf .bf16 (shapeCast S256x128 v2 a1) a2) (constant S5000x128 .f32 0x00000000#32))
              (broadcastTo S5000x128 (shapeCast S1x128 (shapeCast S128 v5 a3) a4) a5))) ht) hc (ix3 (0 : Fin 1) p q)
      = gatedOf (fun k => lhs (ix2 p k)) (fun k => v7 (ix3 (0 : Fin 1) k (0 : Fin 1))) (fun k => v2 (ix3 (0 : Fin 1) k q))
          (v10 (ix2 (0 : Fin 1) (0 : Fin 1))) (v5 (ix2 (0 : Fin 1) q)) := by
  refine (shapeCast_ab_1ab_apply _ hc (0 : Fin 1) p q).trans ?_
  unfold gatedOf
  show (broadcastTo S5000x128
        (logistic (addf (matmul dotG none lhs (truncf .bf16 (shapeCast S256x1 v7 g1) g2) (constant S5000x1 .f32 0x00000000#32))
          (broadcastTo S5000x1 (shapeCast S1x1 (shapeCast S1 v10 g3) g4) g5))) hb (ix2 p q) : EReal)
      * (addf (matmul dotW none lhs (truncf .bf16 (shapeCast S256x128 v2 a1) a2) (constant S5000x128 .f32 0x00000000#32))
          (broadcastTo S5000x128 (shapeCast S1x128 (shapeCast S128 v5 a3) a4) a5) (ix2 p q) : EReal) = _
  have hL : (broadcastTo S5000x128
        (logistic (addf (matmul dotG none lhs (truncf .bf16 (shapeCast S256x1 v7 g1) g2) (constant S5000x1 .f32 0x00000000#32))
          (broadcastTo S5000x1 (shapeCast S1x1 (shapeCast S1 v10 g3) g4) g5))) hb (ix2 p q) : EReal)
      = Ideal.logistic ((∑ k : Fin 256, lhs (ix2 p k) * v7 (ix3 (0 : Fin 1) k (0 : Fin 1))) + v10 (ix2 (0 : Fin 1) (0 : Fin 1))) :=
    (Cert.LibColumn.broadcastTo_a1_ab_apply
      (logistic (addf (matmul dotG none lhs (truncf .bf16 (shapeCast S256x1 v7 g1) g2) (constant S5000x1 .f32 0x00000000#32))
          (broadcastTo S5000x1 (shapeCast S1x1 (shapeCast S1 v10 g3) g4) g5))) hb p q).trans
      (congrArg Ideal.logistic (gate_apply lhs v7 v10 g1 g2 g3 g4 g5 p))
  rw [hL, pre_apply lhs v2 v5 a1 a2 a3 a4 a5 p q]

/-- Support 0's store. -/
theorem pay3_apply (x0 : Vec Ideal S5000x256 .f32) (v2 : Vec Ideal S1x256x128 .f32) (v5 : Vec Ideal S1x128 .f32)
    (v7 : Vec Ideal S1x256x1 .f32) (v10 : Vec Ideal S1x1 .f32) (p : Fin 5000) (q : Fin 128) :
    k0_pay3 (F := Ideal) x0 v2 v5 v7 v10 (ix3 (0 : Fin 1) p q)
      = gatedOf (fun k => x0 (ix2 p k)) (fun k => v7 (ix3 (0 : Fin 1) k (0 : Fin 1))) (fun k => v2 (ix3 (0 : Fin 1) k q))
          (v10 (ix2 (0 : Fin 1) (0 : Fin 1))) (v5 (ix2 (0 : Fin 1) q)) := by
  unfold k0_pay3 k0_pay2
  exact piece_apply (truncf .bf16 x0 bitsLt_bf16_f32) v2 v5 v7 v10 _ _ _ _ _ _ _ _ _ _ _ _ _ p q

/-- Support 1's store. -/
theorem pay1_apply (x0 : Vec Ideal S5000x256 .f32) (v27 : Vec Ideal S1x256x128 .f32) (v30 : Vec Ideal S1x128 .f32)
    (v32 : Vec Ideal S1x256x1 .f32) (v35 : Vec Ideal S1x1 .f32) (p : Fin 5000) (q : Fin 128) :
    k0_pay1 (F := Ideal) (k0_pay2 x0) (k0_pay4 v27) (k0_pay5 v30) v32 v35 (ix3 (0 : Fin 1) p q)
      = gatedOf (fun k => x0 (ix2 p k)) (fun k => v32 (ix3 (0 : Fin 1) k (0 : Fin 1))) (fun k => v27 (ix3 (0 : Fin 1) k q))
          (v35 (ix2 (0 : Fin 1) (0 : Fin 1))) (v30 (ix2 (0 : Fin 1) q)) := by
  unfold k0_pay1 k0_pay2 k0_pay4 k0_pay5
  exact piece_apply (truncf .bf16 x0 bitsLt_bf16_f32) v27 v30 v32 v35 _ _ _ _ _ _ _ _ _ _ _ _ _ p q

end Cert.KernelIdeal.Dense

end
-- ==== Proof.DenseArray.lean ====
/-
  The dense transform call, as one function of its five input arrays.

  Its grid has twenty points. At point `t` the feature window stages rows `5000·t … 5000·t + 4999` of `x`, the four
  parameter windows stage their whole arrays, and the output window stages, for both supports, rows
  `5000·t … 5000·t + 4999` of the result. The body fills the staged output with two stores, one per support, and
  each stored entry is the gated feature of the block's row. So what point `t` writes back is block `t` of the
  gated feature table of the whole arrays, and the twenty blocks tile the table.
-/
import proofs.«105891_j51290499448997_2_alg».proof.Proof.Gen.KernelIdeal.Frame
import proofs.«105891_j51290499448997_2_alg».proof.Proof.DensePayload
import Idealize.ShloMosaic.Lib.Pipeline.Value
import Idealize.ShloMosaic.Lib.ValueIdx

set_option maxRecDepth 16384

noncomputable section

namespace Cert.KernelIdeal.DenseArray

open Cert.KernelIdeal Cert.KernelIdeal.Gen Cert.KernelIdeal.Dense Cert.GraphConv
open Idealize.ShloMosaic Idealize.ShloMosaic.TcCoe Idealize.SL.Sem Idealize.ShloMosaic.ValueIdx
open Idealize.ShloMosaic.Pipeline (Dat)

/-! ## The staged output as one function of the staged inputs -/

/-- The gated feature of the block's row `p` for support `s` at unit `q`, from the five staged inputs. -/
def blockAt (x0 : S5000x256.Idx → EReal) (x1 : S2x256x128.Idx → EReal) (x2 : S2x128.Idx → EReal)
    (x3 : S2x256x1.Idx → EReal) (x4 : S2x1.Idx → EReal) (s : Fin 2) (p : Fin 5000) (q : Fin 128) : EReal :=
  gatedOf (fun k => x0 (ix2 p k)) (fun k => x3 (ix3 s k (0 : Fin 1))) (fun k => x1 (ix3 s k q))
    (x4 (ix2 s (0 : Fin 1))) (x2 (ix2 s q))

/-- The same over the staged output's index. -/
def blockFn (x0 : S5000x256.Idx → EReal) (x1 : S2x256x128.Idx → EReal) (x2 : S2x128.Idx → EReal)
    (x3 : S2x256x1.Idx → EReal) (x4 : S2x1.Idx → EReal) : S2x5000x128.Idx → EReal :=
  fun y => blockAt x0 x1 x2 x3 x4 (y 0) (y 1) (y 2)

theorem blockFn_at (x0 : S5000x256.Idx → EReal) (x1 : S2x256x128.Idx → EReal) (x2 : S2x128.Idx → EReal)
    (x3 : S2x256x1.Idx → EReal) (x4 : S2x1.Idx → EReal) (y : S2x5000x128.Idx) (s : Fin 2) (p : Fin 5000) (q : Fin 128)
    (h0 : (y 0).val = s.val) (h1 : (y 1).val = p.val) (h2 : (y 2).val = q.val) :
    blockFn x0 x1 x2 x3 x4 y = blockAt x0 x1 x2 x3 x4 s p q := by
  have e : y = ix3 s p q := funext fun a => Fin.ext (by
    match a with
    | ⟨0, _⟩ => exact h0
    | ⟨1, _⟩ => exact h1
    | ⟨2, _⟩ => exact h2)
  subst e; rfl

/-- A load through a unit-stride rectangle reads the operand at the offset index. -/
theorem ld_unit_at {Val : EltTy → Type} {S : Shape} {e : EltTy} (X : S.Idx → Val e) (off size : Fin S.rank → Nat)
    (inb : ∀ a, off a + size a ≤ S.size a) (j : (Rect.unit off size inb).shape.Idx) (i : S.Idx)
    (h : ∀ a, (i a).val = off a + (j a).val) : View.ld X (Rect.unit off size inb) j = X i :=
  congrArg X (funext fun a => Fin.ext (by
    show off a + 1 * (j a).val = (i a).val
    rw [h a, Nat.one_mul]))

/-- Support 0's store is the function's lower half: piece entry `(0, p, q)` is the function at `(0, p, q)`. -/
theorem store0_agrees (x0 : Vec Ideal S5000x256 .f32) (x1 : Vec Ideal S2x256x128 .f32) (x2 : Vec Ideal S2x128 .f32)
    (x3 : Vec Ideal S2x256x1 .f32) (x4 : Vec Ideal S2x1 .f32) (x : S1x5000x128.Idx) :
    k0_pay3 (F := Ideal) (View.ld x0 r0_0) (View.ld x1 r0_1) (View.ld x2 r0_2) (View.ld x3 r0_3) (View.ld x4 r0_4) x
      = blockFn x0 x1 x2 x3 x4 (r0_5.emb x) := by
  obtain ⟨u, p, q, rfl⟩ : ∃ (u : Fin 1) (p : Fin 5000) (q : Fin 128), x = ix3 u p q := ⟨x 0, x 1, x 2, eq_ix3 x⟩
  obtain rfl : u = 0 := Subsingleton.elim _ _
  refine (pay3_apply _ _ _ _ _ p q).trans ?_
  refine Eq.trans ?_ (blockFn_at x0 x1 x2 x3 x4 _ (0 : Fin 2) p q rfl (by show 0 + 1 * p.val = p.val; omega)
    (by show 0 + 1 * q.val = q.val; omega)).symm
  unfold blockAt
  have ha : (fun k : Fin 256 => View.ld x0 r0_0 (ix2 p k)) = fun k => x0 (ix2 p k) :=
    funext fun k => ld_unit_at x0 _ _ _ _ _ (fun a => by
      match a with
      | ⟨0, _⟩ => show p.val = 0 + p.val; omega
      | ⟨1, _⟩ => show k.val = 0 + k.val; omega)
  have hb : (fun k : Fin 256 => View.ld x3 r0_3 (ix3 (0 : Fin 1) k (0 : Fin 1))) = fun k => x3 (ix3 (0 : Fin 2) k (0 : Fin 1)) :=
    funext fun k => ld_unit_at x3 _ _ _ _ _ (fun a => by
      match a with
      | ⟨0, _⟩ => rfl
      | ⟨1, _⟩ => show k.val = 0 + k.val; omega
      | ⟨2, _⟩ => rfl)
  have hc : (fun k : Fin 256 => View.ld x1 r0_1 (ix3 (0 : Fin 1) k q)) = fun k => x1 (ix3 (0 : Fin 2) k q) :=
    funext fun k => ld_unit_at x1 _ _ _ _ _ (fun a => by
      match a with
      | ⟨0, _⟩ => rfl
      | ⟨1, _⟩ => show k.val = 0 + k.val; omega
      | ⟨2, _⟩ => show q.val = 0 + q.val; omega)
  have hd : View.ld x4 r0_4 (ix2 (0 : Fin 1) (0 : Fin 1)) = x4 (ix2 (0 : Fin 2) (0 : Fin 1)) :=
    ld_unit_at x4 _ _ _ _ _ (fun a => by
      match a with
      | ⟨0, _⟩ => rfl
      | ⟨1, _⟩ => rfl)
  have he : View.ld x2 r0_2 (ix2 (0 : Fin 1) q) = x2 (ix2 (0 : Fin 2) q) :=
    ld_unit_at x2 _ _ _ _ _ (fun a => by
      match a with
      | ⟨0, _⟩ => rfl
      | ⟨1, _⟩ => show q.val = 0 + q.val; omega)
  rw [ha, hb, hc, hd, he]

/-- Support 1's store is the function's upper half: piece entry `(0, p, q)` is the function at `(1, p, q)`. -/
theorem store1_agrees (x0 : Vec Ideal S5000x256 .f32) (x1 : Vec Ideal S2x256x128 .f32) (x2 : Vec Ideal S2x128 .f32)
    (x3 : Vec Ideal S2x256x1 .f32) (x4 : Vec Ideal S2x1 .f32) (x : S1x5000x128.Idx) :
    k0_pay1 (F := Ideal) (k0_pay2 (View.ld x0 r0_0)) (k0_pay4 (View.ld x1 r0_6)) (k0_pay5 (View.ld x2 r0_7)) (View.ld x3 r0_8) (View.ld x4 r0_9) x
      = blockFn x0 x1 x2 x3 x4 (r0_10.emb x) := by
  obtain ⟨u, p, q, rfl⟩ : ∃ (u : Fin 1) (p : Fin 5000) (q : Fin 128), x = ix3 u p q := ⟨x 0, x 1, x 2, eq_ix3 x⟩
  obtain rfl : u = 0 := Subsingleton.elim _ _
  refine (pay1_apply _ _ _ _ _ p q).trans ?_
  refine Eq.trans ?_ (blockFn_at x0 x1 x2 x3 x4 _ (1 : Fin 2) p q rfl (by show 0 + 1 * p.val = p.val; omega)
    (by show 0 + 1 * q.val = q.val; omega)).symm
  unfold blockAt
  have ha : (fun k : Fin 256 => View.ld x0 r0_0 (ix2 p k)) = fun k => x0 (ix2 p k) :=
    funext fun k => ld_unit_at x0 _ _ _ _ _ (fun a => by
      match a with
      | ⟨0, _⟩ => show p.val = 0 + p.val; omega
      | ⟨1, _⟩ => show k.val = 0 + k.val; omega)
  have hb : (fun k : Fin 256 => View.ld x3 r0_8 (ix3 (0 : Fin 1) k (0 : Fin 1))) = fun k => x3 (ix3 (1 : Fin 2) k (0 : Fin 1)) :=
    funext fun k => ld_unit_at x3 _ _ _ _ _ (fun a => by
      match a with
      | ⟨0, _⟩ => rfl
      | ⟨1, _⟩ => show k.val = 0 + k.val; omega
      | ⟨2, _⟩ => rfl)
  have hc : (fun k : Fin 256 => View.ld x1 r0_6 (ix3 (0 : Fin 1) k q)) = fun k => x1 (ix3 (1 : Fin 2) k q) :=
    funext fun k => ld_unit_at x1 _ _ _ _ _ (fun a => by
      match a with
      | ⟨0, _⟩ => rfl
      | ⟨1, _⟩ => show k.val = 0 + k.val; omega
      | ⟨2, _⟩ => show q.val = 0 + q.val; omega)
  have hd : View.ld x4 r0_9 (ix2 (0 : Fin 1) (0 : Fin 1)) = x4 (ix2 (1 : Fin 2) (0 : Fin 1)) :=
    ld_unit_at x4 _ _ _ _ _ (fun a => by
      match a with
      | ⟨0, _⟩ => rfl
      | ⟨1, _⟩ => rfl)
  have he : View.ld x2 r0_7 (ix2 (0 : Fin 1) q) = x2 (ix2 (1 : Fin 2) q) :=
    ld_unit_at x2 _ _ _ _ _ (fun a => by
      match a with
      | ⟨0, _⟩ => rfl
      | ⟨1, _⟩ => show q.val = 0 + q.val; omega)
  rw [ha, hb, hc, hd, he]

/-- The staged output after the body: the two stores cover it and each is the function's half. -/
theorem staged_eq (x0 : Vec Ideal S5000x256 .f32) (x1 : Vec Ideal S2x256x128 .f32) (x2 : Vec Ideal S2x128 .f32)
    (x3 : Vec Ideal S2x256x1 .f32) (x4 : Vec Ideal S2x1 .f32) :
    out0_5 (F := Ideal) x0 x1 x2 x3 x4 = blockFn x0 x1 x2 x3 x4 := by
  funext y
  unfold out0_5
  refine View.canon_apply_of_pieces (Val := Elt Ideal) (S := S2x5000x128) (e := .bf16) (blockFn x0 x1 x2 x3 x4) _ ?_ y (cover0_5 _ _ y)
  intro pc hpc x
  simp only [List.mem_cons, List.not_mem_nil, or_false] at hpc
  rcases hpc with rfl | rfl
  · exact store1_agrees x0 x1 x2 x3 x4 x
  · exact store0_agrees x0 x1 x2 x3 x4 x

/-! ## From blocks to the table -/

/-- The gated feature table of whole arrays, over the table's index `(support, node, unit)`. -/
def gatedArr (X : S100000x256.Idx → EReal) (Wt : S2x256x128.Idx → EReal) (bt : S2x128.Idx → EReal)
    (Wgt : S2x256x1.Idx → EReal) (bgt : S2x1.Idx → EReal) : S2x100000x128.Idx → EReal :=
  fun i => gated X Wt bt Wgt bgt (i 0) (i 1) (i 2)

/-- An entry of the staged output at block row `y 1` is the table's entry at node `5000·T + y 1`, when the staged
    feature block is rows `5000·T …` of the features and the staged parameters are the whole parameter arrays. -/
theorem block_entry (X : S100000x256.Idx → EReal) (Wt : S2x256x128.Idx → EReal) (bt : S2x128.Idx → EReal)
    (Wgt : S2x256x1.Idx → EReal) (bgt : S2x1.Idx → EReal)
    (x0 : S5000x256.Idx → EReal) (x1 : S2x256x128.Idx → EReal) (x2 : S2x128.Idx → EReal)
    (x3 : S2x256x1.Idx → EReal) (x4 : S2x1.Idx → EReal) (T : Nat)
    (hx0 : ∀ (p : Fin 5000) (k : Fin 256) (n : Fin 100000), n.val = T * 5000 + p.val → x0 (ix2 p k) = X (ix2 n k))
    (hx1 : ∀ y, x1 y = Wt y) (hx2 : ∀ y, x2 y = bt y) (hx3 : ∀ y, x3 y = Wgt y) (hx4 : ∀ y, x4 y = bgt y)
    (y : S2x5000x128.Idx) (i : S2x100000x128.Idx)
    (hi0 : (i 0).val = (y 0).val) (hi1 : (i 1).val = T * 5000 + (y 1).val) (hi2 : (i 2).val = (y 2).val) :
    blockFn x0 x1 x2 x3 x4 y = gatedArr X Wt bt Wgt bgt i := by
  obtain ⟨s, p, q, rfl⟩ : ∃ (s : Fin 2) (p : Fin 5000) (q : Fin 128), y = ix3 s p q := ⟨y 0, y 1, y 2, eq_ix3 y⟩
  obtain ⟨s', n, u, rfl⟩ : ∃ (s' : Fin 2) (n : Fin 100000) (u : Fin 128), i = ix3 s' n u := ⟨i 0, i 1, i 2, eq_ix3 i⟩
  obtain rfl : s' = s := Fin.ext hi0
  obtain rfl : u = q := Fin.ext hi2
  have hn : n.val = T * 5000 + p.val := hi1
  show blockAt x0 x1 x2 x3 x4 s' p u = gated X Wt bt Wgt bgt s' n u
  unfold blockAt gated
  have h1 : (fun k : Fin 256 => x0 (ix2 p k)) = fun k => X (ix2 n k) := funext fun k => hx0 p k n hn
  have h2 : (fun k : Fin 256 => x3 (ix3 s' k (0 : Fin 1))) = fun k => Wgt (ix3 s' k (0 : Fin 1)) := funext fun k => hx3 _
  have h3 : (fun k : Fin 256 => x1 (ix3 s' k u)) = fun k => Wt (ix3 s' k u) := funext fun k => hx1 _
  rw [h1, h2, h3, hx4, hx2]

/-- The six index maps over the twenty points: the feature window and the output window are at row block `t`,
    everything else at block 0. -/
theorem index_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = t.val ∧ win0_5.index t (2 : Fin 3) = 0 :=
  (by decide +kernel : ∀ t : Fin grid0.N, _)

/-- Every row block of the table is some point's. -/
theorem index_onto : ∀ q1 : Fin 20, ∃ t : Fin cfg0.N, win0_5.index t = ![0, q1.val, 0] :=
  (by decide +kernel : ∀ q1 : Fin 20, ∃ t : Fin grid0.N, win0_5.index t = ![0, q1.val, 0])

variable (V : (c : Dev nD) → (b : Ref sig .tc) → Buf (Elt Ideal) ((c : Thread nD τ).loc b))

/-- What point `t` writes back is block `t` of the gated feature table of the arrays the call found. -/
theorem flushed_eq (c : Dev nD) (t : Fin cfg0.N) :
    (dat0 V c).flushed 5 t
      = ((cfg0.win 5).blk t).view.read (Elt Ideal)
          (gatedArr (V c main_arg0) (V c main_arg2) (V c main_arg3) (V c main_arg4) (V c main_arg5)) := by
  show (cfg0.win 5).cut (grid0.coords t) ((dat0 V c).after 5 t) = _
  rw [after0_5, staged_eq]
  obtain ⟨a00, a01, a10, a11, a12, a20, a21, a30, a31, a32, a40, a41, a50, a51, a52⟩ := index_facts t
  funext j
  show blockFn (iblk0 V c 0 t) (iblk0 V c 1 t) (iblk0 V c 2 t) (iblk0 V c 3 t) (iblk0 V c 4 t) j
    = gatedArr (V c main_arg0) (V c main_arg2) (V c main_arg3) (V c main_arg4) (V c main_arg5)
        (((cfg0.win 5).blk t).view.emb j)
  refine block_entry (V c main_arg0) (V c main_arg2) (V c main_arg3) (V c main_arg4) (V c main_arg5)
    (iblk0 V c 0 t) (iblk0 V c 1 t) (iblk0 V c 2 t) (iblk0 V c 3 t) (iblk0 V c 4 t) t.val ?_ ?_ ?_ ?_ ?_ j
    (((cfg0.win 5).blk t).view.emb j) ?_ ?_ ?_
  · intro p k n hn
    show V c main_arg0 (((cfg0.win 0).blk t).view.emb (ix2 p k)) = V c main_arg0 (ix2 n k)
    refine congrArg (V c main_arg0) (funext fun a => Fin.ext ?_)
    match a with
    | ⟨0, _⟩ => show win0_0.index t (0 : Fin 2) * 5000 + 1 * p.val = n.val; omega
    | ⟨1, _⟩ => show win0_0.index t (1 : Fin 2) * 256 + 1 * k.val = k.val; omega
  · intro y
    show V c main_arg2 (((cfg0.win 1).blk t).view.emb y) = V c main_arg2 y
    refine congrArg (V c main_arg2) (funext fun a => Fin.ext ?_)
    match a with
    | ⟨0, _⟩ => show win0_1.index t (0 : Fin 3) * 2 + 1 * (y 0).val = (y 0).val; omega
    | ⟨1, _⟩ => show win0_1.index t (1 : Fin 3) * 256 + 1 * (y 1).val = (y 1).val; omega
    | ⟨2, _⟩ => show win0_1.index t (2 : Fin 3) * 128 + 1 * (y 2).val = (y 2).val; omega
  · intro y
    show V c main_arg3 (((cfg0.win 2).blk t).view.emb y) = V c main_arg3 y
    refine congrArg (V c main_arg3) (funext fun a => Fin.ext ?_)
    match a with
    | ⟨0, _⟩ => show win0_2.index t (0 : Fin 2) * 2 + 1 * (y 0).val = (y 0).val; omega
    | ⟨1, _⟩ => show win0_2.index t (1 : Fin 2) * 128 + 1 * (y 1).val = (y 1).val; omega
  · intro y
    show V c main_arg4 (((cfg0.win 3).blk t).view.emb y) = V c main_arg4 y
    refine congrArg (V c main_arg4) (funext fun a => Fin.ext ?_)
    match a with
    | ⟨0, _⟩ => show win0_3.index t (0 : Fin 3) * 2 + 1 * (y 0).val = (y 0).val; omega
    | ⟨1, _⟩ => show win0_3.index t (1 : Fin 3) * 256 + 1 * (y 1).val = (y 1).val; omega
    | ⟨2, _⟩ => show win0_3.index t (2 : Fin 3) * 1 + 1 * (y 2).val = (y 2).val; omega
  · intro y
    show V c main_arg5 (((cfg0.win 4).blk t).view.emb y) = V c main_arg5 y
    refine congrArg (V c main_arg5) (funext fun a => Fin.ext ?_)
    match a with
    | ⟨0, _⟩ => show win0_4.index t (0 : Fin 2) * 2 + 1 * (y 0).val = (y 0).val; omega
    | ⟨1, _⟩ => show win0_4.index t (1 : Fin 2) * 1 + 1 * (y 1).val = (y 1).val; omega
  · show win0_5.index t (0 : Fin 3) * 2 + 1 * (j 0).val = (j 0).val; omega
  · show win0_5.index t (1 : Fin 3) * 5000 + 1 * (j 1).val = t.val * 5000 + (j 1).val; omega
  · show win0_5.index t (2 : Fin 3) * 128 + 1 * (j 2).val = (j 2).val; omega

/-- An index of the table is in point `t`'s block iff each coordinate is in the block's range. -/
theorem mem_block (t : Fin cfg0.N) (i : S2x100000x128.Idx) :
    i ∈ ((cfg0.win 5).blk t).view.set ↔ ∀ a : Fin 3, win0_5.index t a * S2x5000x128.size a ≤ (i a).val
      ∧ (i a).val < win0_5.index t a * S2x5000x128.size a + S2x5000x128.size a := by
  show i ∈ ((View.whole main_v0).slice (win0_5.rect t)).set ↔ _
  rw [View.set_slice_whole, Rect.mem_set_unit]
  exact Iff.rfl

/-- The twenty blocks cover the table: node `n` is in block `n / 5000`. -/
theorem cover (i : S2x100000x128.Idx) :
    ∃ t : Fin cfg0.N, (cfg0.win 5).flush t = true ∧ i ∈ ((cfg0.win 5).blk t).view.set := by
  have hi0 : (i 0).val < 2 := (i 0).isLt
  have hi1 : (i 1).val < 100000 := (i 1).isLt
  have hi2 : (i 2).val < 128 := (i 2).isLt
  obtain ⟨t, ht⟩ := index_onto ⟨(i 1).val / 5000, by omega⟩
  have q0 : win0_5.index t (0 : Fin 3) = 0 := congrFun ht 0
  have q1 : win0_5.index t (1 : Fin 3) = (i 1).val / 5000 := congrFun ht 1
  have q2 : win0_5.index t (2 : Fin 3) = 0 := congrFun ht 2
  refine ⟨t, flush0_5 t, ?_⟩
  rw [mem_block]
  intro a
  match a with
  | ⟨0, _⟩ => show win0_5.index t (0 : Fin 3) * 2 ≤ (i 0).val ∧ (i 0).val < win0_5.index t (0 : Fin 3) * 2 + 2; omega
  | ⟨1, _⟩ => show win0_5.index t (1 : Fin 3) * 5000 ≤ (i 1).val ∧ (i 1).val < win0_5.index t (1 : Fin 3) * 5000 + 5000; omega
  | ⟨2, _⟩ => show win0_5.index t (2 : Fin 3) * 128 ≤ (i 2).val ∧ (i 2).val < win0_5.index t (2 : Fin 3) * 128 + 128; omega

/-- The table after the twenty write-backs: the gated features of the five arrays as the call found them. -/
theorem final (c : Dev nD) :
    (dat0 V c).arrAt 5 cfg0.N
      = gatedArr (V c main_arg0) (V c main_arg2) (V c main_arg3) (V c main_arg4) (V c main_arg5) :=
  (dat0 V c).arrAt_eq_of_cover 5 _ (fun t _ => flushed_eq V c t) cover

end Cert.KernelIdeal.DenseArray

end
-- ==== Proof.HostStretch.lean ====
/-
  The sparse products between the two calls.

  For one support the host operations take the support's row of the edge arrays (destination nodes, source nodes,
  edge values) and a feature table, gather the table's rows at the source nodes (a negative index counted from the
  end), scale each gathered row by its edge value, and add the rows into an array of zeros at the destination
  nodes. That whole chain is ONE function `sparse` of the three edge arrays and the table: both programs apply it,
  so it is named here and never opened. The stretch of host operations between the two calls computes it twice,
  on the two halves of the table the dense transform call left.
-/
import proofs.«105891_j51290499448997_2_alg».proof.Proof.Gen.KernelIdeal.Frame
import Idealize.ShloMosaic.Lib.StableHlo.Run
import Idealize.ShloMosaic.PureOps.Ideal.Laws

set_option maxRecDepth 16384

noncomputable section

namespace Cert.KernelIdeal.Sparse

open Cert.KernelIdeal Cert.KernelIdeal.Gen
open Idealize.ShloMosaic Idealize.ShloMosaic.TcCoe Idealize.SL.Sem Idealize.ShloMosaic.StableHlo

/-- The source nodes of a support as gather start indices: the support's row of the source array, an index below
    zero moved up by the number of nodes, laid out as a column. -/
def sources (off : Fin 2 → Nat) (hs : S2x1600000.Slices off S1x1600000)
    (a7 : (⟨S2x1600000, .i32⟩ : BufTy).Contents (Elt Ideal)) : (⟨S1600000x1, .i32⟩ : BufTy).Contents (Elt Ideal) :=
  broadcastInDim S1600000x1 ![0] bcast_S1600000_S1600000x1_0
    (select
      (cmpi .slt (shapeCast S1600000 (extractStridedSlice S1x1600000 off a7 hs) shapeCasts_S1x1600000_S1600000)
        (broadcastInDim S1600000 ![] bcast_S_S1600000 (constantI S_ 32 0#32)))
      (addi (shapeCast S1600000 (extractStridedSlice S1x1600000 off a7 hs) shapeCasts_S1x1600000_S1600000)
        (broadcastInDim S1600000 ![] bcast_S_S1600000 (constantI S_ 32 100000#32)))
      (shapeCast S1600000 (extractStridedSlice S1x1600000 off a7 hs) shapeCasts_S1x1600000_S1600000))

/-- The sparse product of one support: the table's rows gathered at the source nodes, scaled by the edge values,
    added into zeros at the destination nodes. -/
def sparse (off : Fin 2 → Nat) (hs : S2x1600000.Slices off S1x1600000)
    (a6 a7 : (⟨S2x1600000, .i32⟩ : BufTy).Contents (Elt Ideal)) (a1 : (⟨S2x1600000, .f32⟩ : BufTy).Contents (Elt Ideal))
    (T : (⟨S100000x128, .f32⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0
      (shapeCast S1600000 (extractStridedSlice S1x1600000 off a6 hs) shapeCasts_S1x1600000_S1600000))
    (mulf (F := Ideal)
      (broadcastInDim S1600000x128 ![0, 1] bcast_S1600000x1_S1600000x128_0_1
        (broadcastInDim S1600000x1 ![0] bcast_S1600000_S1600000x1_0
          (shapeCast S1600000 (extractStridedSlice S1x1600000 off a1 hs) shapeCasts_S1x1600000_S1600000)))
      (Host.gather gather_S100000x128_S1600000x1_S1600000x128_1_0_n_n_0_1_1128 T (sources off hs a7)))

variable (m : (ℓ : Loc nD τ sig) → Buf (Elt Ideal) ℓ) (ρ : Dev nD → PrngReg)

/-- After the host stretch, the first call operand of the combine call is support 0's sparse product of the table
    the dense transform call left. -/
theorem stretch0 (c : Dev nD) :
    W2 m ρ c (Proc.devRef .tc main_v22)
      = sparse ![0, 0] slices_S2x1600000_S1x1600000_0_0 (W1 m ρ c (Proc.devRef .tc main_arg6))
          (W1 m ρ c (Proc.devRef .tc main_arg7)) (W1 m ρ c (Proc.devRef .tc main_arg1))
          (shapeCast S100000x128 (extractStridedSlice S1x100000x128 ![0, 0, 0] (W1 m ρ c (Proc.devRef .tc main_v0))
            slices_S2x100000x128_S1x100000x128_0_0_0) shapeCasts_S1x100000x128_S100000x128) := by
  show StableHlo.after (hostOps1 (F := Ideal)) (W1 m ρ c) (Proc.devRef .tc main_v22) = _
  dsimp only [hostOps1]
  after_results_simp
  rfl

/-- And the second is support 1's. -/
theorem stretch1 (c : Dev nD) :
    W2 m ρ c (Proc.devRef .tc main_v44)
      = sparse ![1, 0] slices_S2x1600000_S1x1600000_1_0 (W1 m ρ c (Proc.devRef .tc main_arg6))
          (W1 m ρ c (Proc.devRef .tc main_arg7)) (W1 m ρ c (Proc.devRef .tc main_arg1))
          (shapeCast S100000x128 (extractStridedSlice S1x100000x128 ![1, 0, 0] (W1 m ρ c (Proc.devRef .tc main_v0))
            slices_S2x100000x128_S1x100000x128_1_0_0) shapeCasts_S1x100000x128_S100000x128) := by
  show StableHlo.after (hostOps1 (F := Ideal)) (W1 m ρ c) (Proc.devRef .tc main_v44) = _
  dsimp only [hostOps1]
  after_results_simp
  rfl

end Cert.KernelIdeal.Sparse

end
-- ==== Proof.KernelValue.lean ====
/-
  The idealized kernel's result as one function of its arguments.

  The result array is the combine call's output: the positive part of the sum of the two sparse products. Each
  sparse product is taken of one half of the table the dense transform call left, and that table is the gated
  feature table of the five dense arguments. The edge arrays reach the host stretch as launched: the first call
  neither stages nor writes them.
-/
import proofs.«105891_j51290499448997_2_alg».proof.Proof.KernelRun
import proofs.«105891_j51290499448997_2_alg».proof.Proof.Combine
import proofs.«105891_j51290499448997_2_alg».proof.Proof.DenseArray
import proofs.«105891_j51290499448997_2_alg».proof.Proof.HostStretch

set_option maxRecDepth 16384

noncomputable section

namespace Cert.KernelIdeal.Whole

open Cert.KernelIdeal Cert.KernelIdeal.Gen Cert.KernelIdeal.Sparse Cert.KernelIdeal.DenseArray Cert.GraphConv
open Idealize.ShloMosaic Idealize.ShloMosaic.TcCoe Idealize.SL.Sem

/-- Half `off` of a `[2, 100000, 128]` table as a `[100000, 128]` array. -/
def half (off : Fin 3 → Nat) (hs : S2x100000x128.Slices off S1x100000x128)
    (G : S2x100000x128.Idx → EReal) : (⟨S100000x128, .f32⟩ : BufTy).Contents (Elt Ideal) :=
  shapeCast S100000x128 (extractStridedSlice S1x100000x128 off G hs) shapeCasts_S1x100000x128_S100000x128

/-- The result as a function of the eight argument arrays: the positive part of the sum over the two supports of
    the sparse product of that support's gated features. -/
def resultOf (x0 : S100000x256.Idx → EReal) (x1 : (⟨S2x1600000, .f32⟩ : BufTy).Contents (Elt Ideal))
    (x2 : S2x256x128.Idx → EReal) (x3 : S2x128.Idx → EReal) (x4 : S2x256x1.Idx → EReal) (x5 : S2x1.Idx → EReal)
    (x6 x7 : (⟨S2x1600000, .i32⟩ : BufTy).Contents (Elt Ideal)) : S100000x128.Idx → EReal :=
  combine
    (sparse ![0, 0] slices_S2x1600000_S1x1600000_0_0 x6 x7 x1
      (half ![0, 0, 0] slices_S2x100000x128_S1x100000x128_0_0_0 (gatedArr x0 x2 x3 x4 x5)))
    (sparse ![1, 0] slices_S2x1600000_S1x1600000_1_0 x6 x7 x1
      (half ![1, 0, 0] slices_S2x100000x128_S1x100000x128_1_0_0 (gatedArr x0 x2 x3 x4 x5)))

variable (m : (ℓ : Loc nD τ sig) → Buf (Elt Ideal) ℓ) (ρ : Dev nD → PrngReg)

/-- At the first call's exit its output array is the gated feature table of the launch contents. -/
theorem table_after_dense (c : Dev nD) :
    W1 m ρ c (Proc.devRef .tc main_v0)
      = gatedArr (m ((c : Thread nD τ).loc main_arg0)) (m ((c : Thread nD τ).loc main_arg2))
          (m ((c : Thread nD τ).loc main_arg3)) (m ((c : Thread nD τ).loc main_arg4)) (m ((c : Thread nD τ).loc main_arg5)) :=
  (W1_arr m ρ c 5).trans (DenseArray.final (V0 m ρ) c)

theorem rows_after_dense (c : Dev nD) : W1 m ρ c (Proc.devRef .tc main_arg6) = m ((c : Thread nD τ).loc main_arg6) :=
  W1_of_ne m ρ c main_arg6 (by decide)
theorem cols_after_dense (c : Dev nD) : W1 m ρ c (Proc.devRef .tc main_arg7) = m ((c : Thread nD τ).loc main_arg7) :=
  W1_of_ne m ρ c main_arg7 (by decide)
theorem vals_after_dense (c : Dev nD) : W1 m ρ c (Proc.devRef .tc main_arg1) = m ((c : Thread nD τ).loc main_arg1) :=
  W1_of_ne m ρ c main_arg1 (by decide)

/-- The result array at the last boundary is `resultOf` of the launch contents. -/
theorem result_value (c : Dev nD) :
    W3 m ρ c (Proc.devRef .tc main_v45)
      = resultOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [result_eq, Combine.final (V2 m ρ) c]
  show combine (W2 m ρ c (Proc.devRef .tc main_v22)) (W2 m ρ c (Proc.devRef .tc main_v44)) = _
  rw [stretch0, stretch1, table_after_dense, rows_after_dense, cols_after_dense, vals_after_dense]
  rfl

/-- Every weakly fair execution of the idealized kernel terminates with the result array at `resultOf` of the
    arguments and the arguments unchanged. -/
theorem run_value : θ_run defs (onTc (τ := τ) (main (F := Ideal))) ⟨m, fun _ => 0, ρ⟩ (fun r => ∀ c : Dev nD,
      r.2.mem ((c.tc : Thread nD τ).loc main_v45)
        = resultOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v45 (by decide))).trans (result_value m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c),
     (h c _ (mem_uc main_arg7 (by decide))).trans (W3_main_arg7 m ρ c)⟩)
    (run_buffers m ρ)

end Cert.KernelIdeal.Whole

end
-- ==== Proof.RefTable.lean ====
/-
  The reference's two feature tables, entry by entry.

  The reference computes each support's table with whole-array operations: the features times the support's
  weight matrix plus the bias row; the features times the gate column plus the gate bias, then `1 / (1 + e^(-z))`
  of that, broadcast over the units; and their product. Read at node `n` and unit `u` each matrix product is the
  sum over the 256 contracted coordinates, each slice, reshape and broadcast only re-indexes, and
  `1 / (1 + e^(-z))` with the float word of one read as the number 1 is the logistic function by definition.
  So the entry is the gated feature of the specification.
-/
import proofs.«105891_j51290499448997_2_alg».proof.Proof.Gen.ReferenceIdeal.Read
import proofs.«105891_j51290499448997_2_alg».proof.Proof.Spec
import Idealize.ShloMosaic.Lib.IdealHost

set_option maxRecDepth 16384

noncomputable section

namespace Cert.ReferenceIdeal.RefValue

open Cert.ReferenceIdeal Cert.ReferenceIdeal.Gen Cert.ReferenceIdeal.Read Cert.GraphConv
open Idealize.ShloMosaic Idealize.ShloMosaic.ValueIdx

/-- Support 0's table of the reference, entry `(n, u)`: the gated feature. -/
theorem table0_apply (x0 : (⟨S100000x256, .f32⟩ : BufTy).Contents (Elt Ideal)) (x2 : (⟨S2x256x128, .f32⟩ : BufTy).Contents (Elt Ideal))
    (x3 : (⟨S2x128, .f32⟩ : BufTy).Contents (Elt Ideal)) (x4 : (⟨S2x256x1, .f32⟩ : BufTy).Contents (Elt Ideal))
    (x5 : (⟨S2x1, .f32⟩ : BufTy).Contents (Elt Ideal)) (n : Fin 100000) (u : Fin 128) :
    val_main_v30 (F := Ideal) x0 x2 x3 x4 x5 (ix2 n u) = gated x0 x2 x3 x4 x5 (0 : Fin 2) n u := by
  rw [val_main_v30_apply, val_main_v29_apply, val_main_v22_apply, val_main_v21_apply, val_main_cst_1_apply, val_main_v20_apply, val_main_v19_apply,
    val_main_cst_0_apply, val_main_v18_apply, val_main_v17_apply, val_main_v16_apply, val_main_v11_apply, val_main_v15_apply, val_main_v14_apply,
    val_main_v13_apply, val_main_v12_apply, val_main_v8_apply, val_main_v3_apply, val_main_v7_apply, val_main_v6_apply, val_main_v5_apply,
    val_main_v4_apply]
  simp only [val_main_v10_apply, val_main_v9_apply, val_main_v2_apply, val_main_v1_apply]
  have e1 : ∀ k : Fin 256, lidx_main_v11 (idx_main_v29 (ix2 n u)) k = ix2 n k := fun k => funext fun a => Fin.ext (by
    match a with
    | ⟨0, _⟩ => rfl
    | ⟨1, _⟩ => rfl)
  have e2 : ∀ k : Fin 256, idx_main_v9 (idx_main_v10 (ridx_main_v11 (idx_main_v29 (ix2 n u)) k)) = ix3 (0 : Fin 2) k (0 : Fin 1) :=
    fun k => funext fun a => Fin.ext (by
      match a with
      | ⟨0, _⟩ => rfl
      | ⟨1, _⟩ => show (k.val * 1 + 0) / 1 % 256 = k.val; have := k.isLt; omega
      | ⟨2, _⟩ => rfl)
  have e3 : idx_main_v12 (idx_main_v13 (idx_main_v14 (idx_main_v15 (idx_main_v29 (ix2 n u))))) = ix2 (0 : Fin 2) (0 : Fin 1) :=
    funext fun a => Fin.ext (by
      match a with
      | ⟨0, _⟩ => rfl
      | ⟨1, _⟩ => rfl)
  have e4 : ∀ k : Fin 256, lidx_main_v3 (ix2 n u) k = ix2 n k := fun k => funext fun a => Fin.ext (by
    match a with
    | ⟨0, _⟩ => rfl
    | ⟨1, _⟩ => rfl)
  have e5 : ∀ k : Fin 256, idx_main_v1 (idx_main_v2 (ridx_main_v3 (ix2 n u) k)) = ix3 (0 : Fin 2) k u :=
    fun k => funext fun a => Fin.ext (by
      match a with
      | ⟨0, _⟩ => rfl
      | ⟨1, _⟩ => show (k.val * 128 + u.val) / 128 % 256 = k.val; have := k.isLt; have := u.isLt; omega
      | ⟨2, _⟩ => show (k.val * 128 + u.val) % 128 = u.val; have := u.isLt; omega)
  have e6 : idx_main_v4 (idx_main_v5 (idx_main_v6 (idx_main_v7 (ix2 n u)))) = ix2 (0 : Fin 2) u :=
    funext fun a => Fin.ext (by
      match a with
      | ⟨0, _⟩ => rfl
      | ⟨1, _⟩ => show u.val % 128 = u.val; have := u.isLt; omega)
  simp only [e1, e2, e3, e4, e5, e6]
  unfold gated gatedOf Ideal.logistic
  simp only [Ideal.ofBits_def, Ideal.ofBits_one_f32]
  rfl

/-- Support 1's table of the reference, entry `(n, u)`: the gated feature. -/
theorem table1_apply (x0 : (⟨S100000x256, .f32⟩ : BufTy).Contents (Elt Ideal)) (x2 : (⟨S2x256x128, .f32⟩ : BufTy).Contents (Elt Ideal))
    (x3 : (⟨S2x128, .f32⟩ : BufTy).Contents (Elt Ideal)) (x4 : (⟨S2x256x1, .f32⟩ : BufTy).Contents (Elt Ideal))
    (x5 : (⟨S2x1, .f32⟩ : BufTy).Contents (Elt Ideal)) (n : Fin 100000) (u : Fin 128) :
    val_main_v74 (F := Ideal) x0 x2 x3 x4 x5 (ix2 n u) = gated x0 x2 x3 x4 x5 (1 : Fin 2) n u := by
  rw [val_main_v74_apply, val_main_v73_apply, val_main_v66_apply, val_main_v65_apply, val_main_cst_5_apply, val_main_v64_apply, val_main_v63_apply,
    val_main_cst_4_apply, val_main_v62_apply, val_main_v61_apply, val_main_v60_apply, val_main_v55_apply, val_main_v59_apply, val_main_v58_apply,
    val_main_v57_apply, val_main_v56_apply, val_main_v52_apply, val_main_v47_apply, val_main_v51_apply, val_main_v50_apply, val_main_v49_apply,
    val_main_v48_apply]
  simp only [val_main_v54_apply, val_main_v53_apply, val_main_v46_apply, val_main_v45_apply]
  have e1 : ∀ k : Fin 256, lidx_main_v55 (idx_main_v73 (ix2 n u)) k = ix2 n k := fun k => funext fun a => Fin.ext (by
    match a with
    | ⟨0, _⟩ => rfl
    | ⟨1, _⟩ => rfl)
  have e2 : ∀ k : Fin 256, idx_main_v53 (idx_main_v54 (ridx_main_v55 (idx_main_v73 (ix2 n u)) k)) = ix3 (1 : Fin 2) k (0 : Fin 1) :=
    fun k => funext fun a => Fin.ext (by
      match a with
      | ⟨0, _⟩ => rfl
      | ⟨1, _⟩ => show (k.val * 1 + 0) / 1 % 256 = k.val; have := k.isLt; omega
      | ⟨2, _⟩ => rfl)
  have e3 : idx_main_v56 (idx_main_v57 (idx_main_v58 (idx_main_v59 (idx_main_v73 (ix2 n u))))) = ix2 (1 : Fin 2) (0 : Fin 1) :=
    funext fun a => Fin.ext (by
      match a with
      | ⟨0, _⟩ => rfl
      | ⟨1, _⟩ => rfl)
  have e4 : ∀ k : Fin 256, lidx_main_v47 (ix2 n u) k = ix2 n k := fun k => funext fun a => Fin.ext (by
    match a with
    | ⟨0, _⟩ => rfl
    | ⟨1, _⟩ => rfl)
  have e5 : ∀ k : Fin 256, idx_main_v45 (idx_main_v46 (ridx_main_v47 (ix2 n u) k)) = ix3 (1 : Fin 2) k u :=
    fun k => funext fun a => Fin.ext (by
      match a with
      | ⟨0, _⟩ => rfl
      | ⟨1, _⟩ => show (k.val * 128 + u.val) / 128 % 256 = k.val; have := k.isLt; have := u.isLt; omega
      | ⟨2, _⟩ => show (k.val * 128 + u.val) % 128 = u.val; have := u.isLt; omega)
  have e6 : idx_main_v48 (idx_main_v49 (idx_main_v50 (idx_main_v51 (ix2 n u)))) = ix2 (1 : Fin 2) u :=
    funext fun a => Fin.ext (by
      match a with
      | ⟨0, _⟩ => rfl
      | ⟨1, _⟩ => show u.val % 128 = u.val; have := u.isLt; omega)
  simp only [e1, e2, e3, e4, e5, e6]
  unfold gated gatedOf Ideal.logistic
  simp only [Ideal.ofBits_def, Ideal.ofBits_one_f32]
  rfl

end Cert.ReferenceIdeal.RefValue

end
-- ==== Proof.Bridge.lean ====
/-
  The two results are one function of the arguments.

  The reference's result is `max(((0 + s₀) + s₁), 0)` with `sᵢ` the sparse product of support `i`'s table; the
  kernel's is `max(s₀ + s₁, 0)` with the same sparse products taken of the two halves of its one table. The
  halves of the kernel's table are the reference's two tables, entry by entry (each entry is the gated feature);
  the sparse product is the same chain of host operations on both sides, carried as one function; and adding to
  zero changes nothing on the extended reals.
-/
import proofs.«105891_j51290499448997_2_alg».proof.Proof.KernelValue
import proofs.«105891_j51290499448997_2_alg».proof.Proof.RefTable

set_option maxRecDepth 16384

noncomputable section

namespace Cert.Bridge

open Cert.KernelIdeal.Whole Cert.KernelIdeal.Sparse Cert.KernelIdeal.DenseArray Cert.GraphConv
open Cert.ReferenceIdeal.Read Cert.ReferenceIdeal.RefValue
open Idealize.ShloMosaic Idealize.ShloMosaic.ValueIdx

/-- Adding the first contribution to zeros, then taking the maximum with zeros, at one entry: the positive part of the
    plain sum. -/
theorem relu_zero_add_apply {s : Shape} (z a b z' : FVec Ideal s .f32) (hz : ∀ i, z i = (0 : EReal))
    (hz' : ∀ i, z' i = (0 : EReal)) (i : s.Idx) :
    maximumf (addf (addf z a) b) z' i = max (a i + b i) (0 : EReal) := by
  show max ((z i + a i) + b i) (z' i) = _
  rw [hz i, hz' i, zero_add]

/-- The lower half of the gated feature table is the reference's table of support 0. -/
theorem half0_eq (x0 : (⟨Cert.ReferenceIdeal.S100000x256, .f32⟩ : BufTy).Contents (Elt Ideal)) (x2 : (⟨Cert.ReferenceIdeal.S2x256x128, .f32⟩ : BufTy).Contents (Elt Ideal))
    (x3 : (⟨Cert.ReferenceIdeal.S2x128, .f32⟩ : BufTy).Contents (Elt Ideal)) (x4 : (⟨Cert.ReferenceIdeal.S2x256x1, .f32⟩ : BufTy).Contents (Elt Ideal)) (x5 : (⟨Cert.ReferenceIdeal.S2x1, .f32⟩ : BufTy).Contents (Elt Ideal)) :
    half ![0, 0, 0] Cert.KernelIdeal.Gen.slices_S2x100000x128_S1x100000x128_0_0_0 (gatedArr x0 x2 x3 x4 x5)
      = val_main_v30 (F := Ideal) x0 x2 x3 x4 x5 := by
  funext i
  obtain ⟨n, u, rfl⟩ : ∃ (n : Fin 100000) (u : Fin 128), i = ix2 n u := ⟨i 0, i 1, eq_ix2 i⟩
  rw [table0_apply]
  unfold half
  refine (shapeCast_1ab_ab_apply _ _ n u).trans ?_
  refine (extractStridedSlice_apply ![0, 0, 0] _ _ (ix3 (0 : Fin 1) n u) (ix3 (0 : Fin 2) n u) (fun a => by
    match a with
    | ⟨0, _⟩ => rfl
    | ⟨1, _⟩ => show n.val = 0 + n.val; omega
    | ⟨2, _⟩ => show u.val = 0 + u.val; omega)).trans ?_
  rfl

/-- The upper half is the reference's table of support 1. -/
theorem half1_eq (x0 : (⟨Cert.ReferenceIdeal.S100000x256, .f32⟩ : BufTy).Contents (Elt Ideal)) (x2 : (⟨Cert.ReferenceIdeal.S2x256x128, .f32⟩ : BufTy).Contents (Elt Ideal))
    (x3 : (⟨Cert.ReferenceIdeal.S2x128, .f32⟩ : BufTy).Contents (Elt Ideal)) (x4 : (⟨Cert.ReferenceIdeal.S2x256x1, .f32⟩ : BufTy).Contents (Elt Ideal)) (x5 : (⟨Cert.ReferenceIdeal.S2x1, .f32⟩ : BufTy).Contents (Elt Ideal)) :
    half ![1, 0, 0] Cert.KernelIdeal.Gen.slices_S2x100000x128_S1x100000x128_1_0_0 (gatedArr x0 x2 x3 x4 x5)
      = val_main_v74 (F := Ideal) x0 x2 x3 x4 x5 := by
  funext i
  obtain ⟨n, u, rfl⟩ : ∃ (n : Fin 100000) (u : Fin 128), i = ix2 n u := ⟨i 0, i 1, eq_ix2 i⟩
  rw [table1_apply]
  unfold half
  refine (shapeCast_1ab_ab_apply _ _ n u).trans ?_
  refine (extractStridedSlice_apply ![1, 0, 0] _ _ (ix3 (0 : Fin 1) n u) (ix3 (1 : Fin 2) n u) (fun a => by
    match a with
    | ⟨0, _⟩ => rfl
    | ⟨1, _⟩ => show n.val = 0 + n.val; omega
    | ⟨2, _⟩ => show u.val = 0 + u.val; omega)).trans ?_
  rfl

/-- The reference's first scatter stage is the sparse product of its first table: the same host operations. -/
theorem ref_sparse0 (x0 : (⟨Cert.ReferenceIdeal.S100000x256, .f32⟩ : BufTy).Contents (Elt Ideal)) (x1 : (⟨Cert.ReferenceIdeal.S2x1600000, .f32⟩ : BufTy).Contents (Elt Ideal))
    (x2 : (⟨Cert.ReferenceIdeal.S2x256x128, .f32⟩ : BufTy).Contents (Elt Ideal)) (x3 : (⟨Cert.ReferenceIdeal.S2x128, .f32⟩ : BufTy).Contents (Elt Ideal)) (x4 : (⟨Cert.ReferenceIdeal.S2x256x1, .f32⟩ : BufTy).Contents (Elt Ideal))
    (x5 : (⟨Cert.ReferenceIdeal.S2x1, .f32⟩ : BufTy).Contents (Elt Ideal)) (x6 x7 : (⟨Cert.ReferenceIdeal.S2x1600000, .i32⟩ : BufTy).Contents (Elt Ideal)) :
    val_main_v43 (F := Ideal) x0 x1 x2 x3 x4 x5 x6 x7
      = sparse ![0, 0] Cert.KernelIdeal.Gen.slices_S2x1600000_S1x1600000_0_0 x6 x7 x1 (val_main_v30 (F := Ideal) x0 x2 x3 x4 x5) := rfl

/-- And its second, of its second table. -/
theorem ref_sparse1 (x0 : (⟨Cert.ReferenceIdeal.S100000x256, .f32⟩ : BufTy).Contents (Elt Ideal)) (x1 : (⟨Cert.ReferenceIdeal.S2x1600000, .f32⟩ : BufTy).Contents (Elt Ideal))
    (x2 : (⟨Cert.ReferenceIdeal.S2x256x128, .f32⟩ : BufTy).Contents (Elt Ideal)) (x3 : (⟨Cert.ReferenceIdeal.S2x128, .f32⟩ : BufTy).Contents (Elt Ideal)) (x4 : (⟨Cert.ReferenceIdeal.S2x256x1, .f32⟩ : BufTy).Contents (Elt Ideal))
    (x5 : (⟨Cert.ReferenceIdeal.S2x1, .f32⟩ : BufTy).Contents (Elt Ideal)) (x6 x7 : (⟨Cert.ReferenceIdeal.S2x1600000, .i32⟩ : BufTy).Contents (Elt Ideal)) :
    val_main_v87 (F := Ideal) x0 x1 x2 x3 x4 x5 x6 x7
      = sparse ![1, 0] Cert.KernelIdeal.Gen.slices_S2x1600000_S1x1600000_1_0 x6 x7 x1 (val_main_v74 (F := Ideal) x0 x2 x3 x4 x5) := rfl

/-- The reference's result is the kernel's function of the same arguments. -/
theorem ref_result (x0 : (⟨Cert.ReferenceIdeal.S100000x256, .f32⟩ : BufTy).Contents (Elt Ideal)) (x1 : (⟨Cert.ReferenceIdeal.S2x1600000, .f32⟩ : BufTy).Contents (Elt Ideal))
    (x2 : (⟨Cert.ReferenceIdeal.S2x256x128, .f32⟩ : BufTy).Contents (Elt Ideal)) (x3 : (⟨Cert.ReferenceIdeal.S2x128, .f32⟩ : BufTy).Contents (Elt Ideal)) (x4 : (⟨Cert.ReferenceIdeal.S2x256x1, .f32⟩ : BufTy).Contents (Elt Ideal))
    (x5 : (⟨Cert.ReferenceIdeal.S2x1, .f32⟩ : BufTy).Contents (Elt Ideal)) (x6 x7 : (⟨Cert.ReferenceIdeal.S2x1600000, .i32⟩ : BufTy).Contents (Elt Ideal)) :
    val_main_v89 (F := Ideal) x0 x1 x2 x3 x4 x5 x6 x7 = resultOf x0 x1 x2 x3 x4 x5 x6 x7 := by
  unfold resultOf
  rw [half0_eq, half1_eq, ← ref_sparse0 x0 x1 x2 x3 x4 x5 x6 x7, ← ref_sparse1 x0 x1 x2 x3 x4 x5 x6 x7]
  have hz : ∀ i, val_main_v0 (F := Ideal) i = (0 : EReal) := fun i => by
    rw [val_main_v0_apply, val_main_cst_apply]; exact Ideal.ofBits_zero_f32
  have hz' : ∀ i, val_main_call0_v0 (F := Ideal) i = (0 : EReal) := fun i => by
    rw [val_main_call0_v0_apply, val_main_call0_cst_apply]; exact Ideal.ofBits_zero_f32
  unfold val_main_v89 val_main_v88 val_main_v44
  generalize val_main_v43 (F := Ideal) x0 x1 x2 x3 x4 x5 x6 x7 = A
  generalize val_main_v87 (F := Ideal) x0 x1 x2 x3 x4 x5 x6 x7 = B
  funext i
  refine (relu_zero_add_apply (val_main_v0 (F := Ideal)) A B (val_main_call0_v0 (F := Ideal)) hz hz' i).trans ?_
  rfl

end Cert.Bridge

end
-- ==== Proof.lean ====
/-
  The certificate of the gated graph convolution: the Pallas program (a dense transform call, two sparse products
  on the host, a combine call) against its jnp reference.

  Frames. The two printed kernels' frames are the generated ones. The reference has no kernel: its frame is its
  generated run with the result dropped.

  Preservation. The idealization rewrote no operation: the claim is `True`.

  Equivalence at the extended reals. Both programs end with
      max(Σ_s sparse_s(gated features of support s), 0)
  where the gated feature of node `n`, unit `u` is `σ(x[n]·Wg[s] + bg[s]) · (x[n]·W[s][:,u] + b[s,u])`. The
  kernel computes the features by row blocks on the matrix unit and combines by row blocks; the reference computes
  them with whole matrix products and spells `σ` as `1/(1+e^(-z))`, adds the first contribution to zeros, and
  takes the maximum with zeros. These agree on every extended real: matrix products are the same finite sums,
  changes of float format are the identity, `0 + a = a`, and the sparse product is the same function on both sides.
  No step needs the inputs finite.
-/
import proofs.«105891_j51290499448997_2_alg».proof.Defs
import proofs.«105891_j51290499448997_2_alg».proof.Proof.Gen.Kernel
import proofs.«105891_j51290499448997_2_alg».proof.Proof.Gen.Kernel.Frame
import proofs.«105891_j51290499448997_2_alg».proof.Proof.Gen.KernelIdeal
import proofs.«105891_j51290499448997_2_alg».proof.Proof.Gen.KernelIdeal.Frame
import proofs.«105891_j51290499448997_2_alg».proof.Proof.Gen.ReferenceIdeal
import proofs.«105891_j51290499448997_2_alg».proof.Proof.Gen.Pre_finite_inputs
import proofs.«105891_j51290499448997_2_alg».proof.Proof.Gen.ReferenceIdeal.Run
import proofs.«105891_j51290499448997_2_alg».proof.Proof.Gen.ReferenceIdeal.Read
import proofs.«105891_j51290499448997_2_alg».proof.Proof.KernelValue
import proofs.«105891_j51290499448997_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments; the frame forgets the result. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the same function of the (agreeing) arguments. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v89_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact Cert.Bridge.ref_result _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
